-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512x1x4 : Shape := ⟨4, ![10000, 512, 1, 4]⟩
abbrev S3x512x1 : Shape := ⟨3, ![3, 512, 1]⟩
abbrev S3x1 : Shape := ⟨2, ![3, 1]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S10000x512x1x4 : S_.BroadcastsInDim S10000x512x1x4 (![] : Fin 0 → Fin S10000x512x1x4.rank)
  reducesTo_S10000x512x1x4_S_d0_1_2_3 : S10000x512x1x4.ReducesTo [0, 1, 2, 3] S_
  h_S_ : 0 < S_.numel
  bcast_S_S3x512x1 : S_.BroadcastsInDim S3x512x1 (![] : Fin 0 → Fin S3x512x1.rank)
  reducesTo_S3x512x1_S_d0_1_2 : S3x512x1.ReducesTo [0, 1, 2] S_
  bcast_S_S3x1 : S_.BroadcastsInDim S3x1 (![] : Fin 0 → Fin S3x1.rank)
  reducesTo_S3x1_S_d0_1 : S3x1.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1024 .f32) (main_arg5 : FVec F S1024x1 .f32) (main_arg6 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1 .f32 := Host.absf main_arg5
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S10000x512x1x4 .f32) (main_arg1 : FVec F S3x512x1 .f32) (main_arg2 : FVec F S3x1 .f32) (main_arg3 : FVec F S512x1024 .f32) (main_arg4 : FVec F S1024 .f32) (main_arg5 : FVec F S1024x1 .f32) (main_arg6 : FVec F S1 .f32) : IVec S_ 1 :=
  let main_v0 : FVec F S10000x512x1x4 .f32 := Host.absf main_arg0
  let main_cst : FVec F S_ .f32 := constant S_ .f32 0x7F800000#32
  let main_v1 : FVec F S10000x512x1x4 .f32 := broadcastInDim S10000x512x1x4 ![] bcast_S_S10000x512x1x4 main_cst
  let main_v2 : IVec S10000x512x1x4 1 := cmpf .olt main_v0 main_v1
  let main_c : IVec S_ 1 := constantI S_ 1 1#1
  let main_v3 : IVec S_ 1 := (fun x v => Host.reduce IntOp.andi x v reducesTo_S10000x512x1x4_S_d0_1_2_3 h_S_) main_v2 main_c
  let main_v4 : FVec F S3x512x1 .f32 := Host.absf main_arg1
  let main_cst_0 : FVec F S_ .f32 := constant S_ .f32 0x7F800000#32
  let main_v5 : FVec F S3x512x1 .f32 := broadcastInDim S3x512x1 ![] bcast_S_S3x512x1 main_cst_0
  let main_v6 : IVec S3x512x1 1 := cmpf .olt main_v4 main_v5
  let main_c_1 : IVec S_ 1 := constantI S_ 1 1#1
  let main_v7 : IVec S_ 1 := (fun x v => Host.reduce IntOp.andi x v reducesTo_S3x512x1_S_d0_1_2 h_S_) main_v6 main_c_1
  let main_v8 : IVec S_ 1 := andi main_v3 main_v7
  let main_v9 : FVec F S3x1 .f32 := Host.absf main_arg2
  let main_cst_2 : FVec F S_ .f32 := constant S_ .f32 0x7F800000#32
  let main_v10 : FVec F S3x1 .f32 := broadcastInDim S3x1 ![] bcast_S_S3x1 main_cst_2
  let main_v11 : IVec S3x1 1 := cmpf .olt main_v9 main_v10
  let main_c_3 : IVec S_ 1 := constantI S_ 1 1#1
  let main_v12 : IVec S_ 1 := (fun x v => Host.reduce IntOp.andi x v reducesTo_S3x1_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Kernel.lean ====
abbrev S10000x512x1x4 : Shape := ⟨4, ![10000, 512, 1, 4]⟩
abbrev S3x512x1 : Shape := ⟨3, ![3, 512, 1]⟩
abbrev S3x1 : Shape := ⟨2, ![3, 1]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S10000x512x4 : Shape := ⟨3, ![10000, 512, 4]⟩
abbrev S10000x4x128x4 : Shape := ⟨4, ![10000, 4, 128, 4]⟩
abbrev S10000x4x4x128 : Shape := ⟨4, ![10000, 4, 4, 128]⟩
abbrev S3x512 : Shape := ⟨2, ![3, 512]⟩
abbrev S_ : Shape := ⟨0, ![]⟩
abbrev S1x512 : Shape := ⟨2, ![1, 512]⟩
abbrev S4x512 : Shape := ⟨2, ![4, 512]⟩
abbrev S1x1 : Shape := ⟨2, ![1, 1]⟩
abbrev S1x1024 : Shape := ⟨2, ![1, 1024]⟩
abbrev S10000x1 : Shape := ⟨2, ![10000, 1]⟩
abbrev S1000x1x4x128 : Shape := ⟨4, ![1000, 1, 4, 128]⟩
abbrev S1000x1 : Shape := ⟨2, ![1000, 1]⟩
abbrev S1000x1x1x128 : Shape := ⟨4, ![1000, 1, 1, 128]⟩
abbrev S1000x128 : Shape := ⟨2, ![1000, 128]⟩
abbrev S1000x512 : Shape := ⟨2, ![1000, 512]⟩
abbrev S1000x1024 : Shape := ⟨2, ![1000, 1024]⟩
abbrev S1000 : Shape := ⟨1, ![1000]⟩
abbrev S1000x4x128 : Shape := ⟨3, ![1000, 4, 128]⟩
abbrev S4x128 : Shape := ⟨2, ![4, 128]⟩
abbrev S1x4x128 : Shape := ⟨3, ![1, 4, 128]⟩
abbrev S1000x4 : Shape := ⟨2, ![1000, 4]⟩
abbrev S10000 : Shape := ⟨1, ![10000]⟩

abbrev nBuf : Space → Nat
  | .hbm => 24
  | .vmem => 15
  | .smem => 0
  | _ => 0

abbrev bufTy : (tb : Table) → Fin (tcTables nBuf tb) → BufTy
  | .hbm, ⟨0, _⟩ => ⟨S10000x512x1x4, .f32⟩
  | .hbm, ⟨1, _⟩ => ⟨S3x512x1, .f32⟩
  | .hbm, ⟨2, _⟩ => ⟨S3x1, .f32⟩
  | .hbm, ⟨3, _⟩ => ⟨S512x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S10000x512x4, .f32⟩
  | .hbm, ⟨8, _⟩ => ⟨S10000x4x128x4, .f32⟩
  | .hbm, ⟨9, _⟩ => ⟨S10000x4x4x128, .f32⟩
  | .hbm, ⟨10, _⟩ => ⟨S3x512, .f32⟩
  | .hbm, ⟨11, _⟩ => ⟨S_, .f32⟩
  | .hbm, ⟨12, _⟩ => ⟨S1x512, .f32⟩
  | .hbm, ⟨13, _⟩ => ⟨S4x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S512x1024, .bf16⟩
  | .hbm, ⟨20, _⟩ => ⟨S1x1024, .f32⟩
  | .hbm, ⟨21, _⟩ => ⟨S1x1024, .f32⟩
  | .hbm, ⟨22, _⟩ => ⟨S10000x1, .f32⟩
  | .hbm, ⟨23, _⟩ => ⟨S10000, .f32⟩
  | .local _ .vmem, ⟨0, _⟩ => ⟨S1000x1x4x128, .f32⟩
  | .local _ .vmem, ⟨1, _⟩ => ⟨S1000x1x4x128, .f32⟩
  | .local _ .vmem, ⟨2, _⟩ => ⟨S1000x1x4x128, .f32⟩
  | .local _ .vmem, ⟨3, _⟩ => ⟨S1000x1x4x128, .f32⟩
  | .local _ .vmem, ⟨4, _⟩ => ⟨S1000x1x4x128, .f32⟩
  | .local _ .vmem, ⟨5, _⟩ => ⟨S1000x1x4x128, .f32⟩
  | .local _ .vmem, ⟨6, _⟩ => ⟨S1000x1x4x128, .f32⟩
  | .local _ .vmem, ⟨7, _⟩ => ⟨S1000x1x4x128, .f32⟩
  | .local _ .vmem, ⟨8, _⟩ => ⟨S4x512, .f32⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1, .f32⟩
  | .local _ .vmem, ⟨13, _⟩ => ⟨S1000x1, .f32⟩
  | .local _ .vmem, ⟨14, _⟩ => ⟨S1000x1, .f32⟩
  | _, _ => ⟨S10000x512x1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S10000x512x1x4_S10000x512x4 : S10000x512x1x4.ShapeCasts S10000x512x4
  shapeCasts_S10000x512x4_S10000x4x128x4 : S10000x512x4.ShapeCasts S10000x4x128x4
  transposes_S10000x4x128x4_S10000x4x4x128_0_1_3_2 : S10000x4x128x4.Transposes [0, 1, 3, 2] S10000x4x4x128
  shapeCasts_S3x512x1_S3x512 : S3x512x1.ShapeCasts S3x512
  bcast_S_S1x512 : S_.BroadcastsInDim S1x512 (![] : Fin 0 → Fin S1x512.rank)
  concatenates_S3x512_S1x512_S4x512_d0 : Shape.Concatenates [S3x512, S1x512] S4x512 0
  reducesTo_S3x1_S_d0_1 : S3x1.ReducesTo [0, 1] S_
  h_S_ : 0 < S_.numel
  shapeCasts_S1_S_ : S1.ShapeCasts S_
  shapeCasts_S_S1x1 : S_.ShapeCasts S1x1
  bitsLt_bf16_f32 : FTy.bits .bf16 < FTy.bits .f32
  shapeCasts_S1024_S1x1024 : S1024.ShapeCasts S1x1024
  shapeCasts_S1024x1_S1x1024 : S1024x1.ShapeCasts S1x1024
  inb_S1000x1x4x128_S1000x1x1x128_0_0_3_0 : ∀ a, (![0, 0, 3, 0] : Fin 4 → Nat) a + S1000x1x1x128.size a ≤ S1000x1x4x128.size a
  h_S1000x1x1x128 : 0 < S1000x1x1x128.numel
  shapeCasts_S1000x1x1x128_S1000x128 : S1000x1x1x128.ShapeCasts S1000x128
  concatenates_S1000x128_S1000x128_S1000x128_S1000x128_S1000x512_d1 : Shape.Concatenates [S1000x128, S1000x128, S1000x128, S1000x128] S1000x512 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  reduces_S1000x1024_S1000 : S1000x1024.Reduces [1] S1000
  shapeCasts_S1000_S1000x1 : S1000.ShapeCasts S1000x1
  inb_S1000x1x4x128_S1000x1x4x128_0_0_0_0 : ∀ a, (![0, 0, 0, 0] : Fin 4 → Nat) a + S1000x1x4x128.size a ≤ S1000x1x4x128.size a
  h_S1000x1x4x128 : 0 < S1000x1x4x128.numel
  shapeCasts_S1000x1x4x128_S1000x4x128 : S1000x1x4x128.ShapeCasts S1000x4x128
  inb_S4x512_S4x128_0_0 : ∀ a, (![0, 0] : Fin 2 → Nat) a + S4x128.size a ≤ S4x512.size a
  h_S4x128 : 0 < S4x128.numel
  shapeCasts_S4x128_S4x128 : S4x128.ShapeCasts S4x128
  shapeCasts_S4x128_S1x4x128 : S4x128.ShapeCasts S1x4x128
  broadcasts_S1x4x128_S1000x4x128 : S1x4x128.Broadcasts S1000x4x128
  inb_S4x512_S4x128_0_128 : ∀ a, (![0, 128] : Fin 2 → Nat) a + S4x128.size a ≤ S4x512.size a
  inb_S4x512_S4x128_0_256 : ∀ a, (![0, 256] : Fin 2 → Nat) a + S4x128.size a ≤ S4x512.size a
  inb_S4x512_S4x128_0_384 : ∀ a, (![0, 384] : Fin 2 → Nat) a + S4x128.size a ≤ S4x512.size a
  reduces_S1000x4x128_S1000x4 : S1000x4x128.Reduces [2] S1000x4
  reduces_S1000x4_S1000 : S1000x4.Reduces [1] S1000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  shapeCasts_S10000x1_S10000 : S10000x1.ShapeCasts S10000
  dot_S1000x512_S512x1024_S1000x1024_1_0_0_1_n_n_wf : DotDims.WF S1000x512 S512x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1x4x128.size a ≤ S10000x4x4x128.size a
  hwx0_0 : ∀ i : grid0.Coords, EltTy.bits .f32 = 32 ∨ (Rect.block (s := S10000x4x4x128) S1000x1x4x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1x4x128.size a ≤ S10000x4x4x128.size a
  hwx0_1 : ∀ i : grid0.Coords, EltTy.bits .f32 = 32 ∨ (Rect.block (s := S10000x4x4x128) S1000x1x4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1x4x128.size a ≤ S10000x4x4x128.size a
  hwx0_2 : ∀ i : grid0.Coords, EltTy.bits .f32 = 32 ∨ (Rect.block (s := S10000x4x4x128) S1000x1x4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1x4x128.size a ≤ S10000x4x4x128.size a
  hwx0_3 : ∀ i : grid0.Coords, EltTy.bits .f32 = 32 ∨ (Rect.block (s := S10000x4x4x128) S1000x1x4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x512.size a
  hwx0_4 : ∀ i : grid0.Coords, EltTy.bits .f32 = 32 ∨ (Rect.block (s := S4x512) S4x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x1.size a ≤ S10000x1.size a
  hwx0_9 : ∀ i : grid0.Coords, EltTy.bits .f32 = 32 ∨ (Rect.block (s := S10000x1) S1000x1.size (cc0_transform_9 i) (hinb0_9 i)).WholeWords (EltTy.packing .f32)

variable [Facts₀]

def dot_S1000x512_S512x1024_S1000x1024_1_0_0_1_n_n : DotDims S1000x512 S512x1024 S1000x1024 where
  lhsContracting := [1]
  rhsContracting := [0]
  lhsNonContracting := [0]
  rhsNonContracting := [1]
  lhsBatch := []
  rhsBatch := []
  wf := dot_S1000x512_S512x1024_S1000x1024_1_0_0_1_n_n_wf

abbrev win0_0 : Pipeline.Window sig grid0 :=
  Pipeline.Window.ofSpec (Memref.whole main_v2) S1000x1x4x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1000x1x4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x1x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x1x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S10000x512x1x4 : Shape := ⟨4, ![10000, 512, 1, 4]⟩
abbrev S3x512x1 : Shape := ⟨3, ![3, 512, 1]⟩
abbrev S3x1 : Shape := ⟨2, ![3, 1]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S10000x512x4 : Shape := ⟨3, ![10000, 512, 4]⟩
abbrev S10000x512x1 : Shape := ⟨3, ![10000, 512, 1]⟩
abbrev S10000x512 : Shape := ⟨2, ![10000, 512]⟩
abbrev S1x512x1 : Shape := ⟨3, ![1, 512, 1]⟩
abbrev S512x1 : Shape := ⟨2, ![512, 1]⟩
abbrev S10000x1 : Shape := ⟨2, ![10000, 1]⟩
abbrev S1x1 : Shape := ⟨2, ![1, 1]⟩
abbrev S10000x1024 : Shape := ⟨2, ![10000, 1024]⟩
abbrev S1x1024 : Shape := ⟨2, ![1, 1024]⟩
abbrev S_ : Shape := ⟨0, ![]⟩
abbrev S1x10000x1 : Shape := ⟨3, ![1, 10000, 1]⟩
abbrev S4x10000x1 : Shape := ⟨3, ![4, 10000, 1]⟩
abbrev S10000 : Shape := ⟨1, ![10000]⟩

abbrev nBuf : Space → Nat
  | .hbm => 65
  | .vmem => 0
  | .smem => 0
  | _ => 0

abbrev bufTy : (tb : Table) → Fin (tcTables nBuf tb) → BufTy
  | .hbm, ⟨0, _⟩ => ⟨S10000x512x1x4, .f32⟩
  | .hbm, ⟨1, _⟩ => ⟨S3x512x1, .f32⟩
  | .hbm, ⟨2, _⟩ => ⟨S3x1, .f32⟩
  | .hbm, ⟨3, _⟩ => ⟨S512x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S10000x512x4, .f32⟩
  | .hbm, ⟨8, _⟩ => ⟨S10000x512x1, .f32⟩
  | .hbm, ⟨9, _⟩ => ⟨S10000x512, .f32⟩
  | .hbm, ⟨10, _⟩ => ⟨S1x512x1, .f32⟩
  | .hbm, ⟨11, _⟩ => ⟨S512x1, .f32⟩
  | .hbm, ⟨12, _⟩ => ⟨S10000x1, .f32⟩
  | .hbm, ⟨13, _⟩ => ⟨S1x1, .f32⟩
  | .hbm, ⟨14, _⟩ => ⟨S1, .f32⟩
  | .hbm, ⟨15, _⟩ => ⟨S1x1, .f32⟩
  | .hbm, ⟨16, _⟩ => ⟨S10000x1, .f32⟩
  | .hbm, ⟨17, _⟩ => ⟨S10000x1, .f32⟩
  | .hbm, ⟨18, _⟩ => ⟨S10000x512x1, .f32⟩
  | .hbm, ⟨19, _⟩ => ⟨S10000x512, .f32⟩
  | .hbm, ⟨20, _⟩ => ⟨S1x512x1, .f32⟩
  | .hbm, ⟨21, _⟩ => ⟨S512x1, .f32⟩
  | .hbm, ⟨22, _⟩ => ⟨S10000x1, .f32⟩
  | .hbm, ⟨23, _⟩ => ⟨S1x1, .f32⟩
  | .hbm, ⟨24, _⟩ => ⟨S1, .f32⟩
  | .hbm, ⟨25, _⟩ => ⟨S1x1, .f32⟩
  | .hbm, ⟨26, _⟩ => ⟨S10000x1, .f32⟩
  | .hbm, ⟨27, _⟩ => ⟨S10000x1, .f32⟩
  | .hbm, ⟨28, _⟩ => ⟨S10000x512x1, .f32⟩
  | .hbm, ⟨29, _⟩ => ⟨S10000x512, .f32⟩
  | .hbm, ⟨30, _⟩ => ⟨S1x512x1, .f32⟩
  | .hbm, ⟨31, _⟩ => ⟨S512x1, .f32⟩
  | .hbm, ⟨32, _⟩ => ⟨S10000x1, .f32⟩
  | .hbm, ⟨33, _⟩ => ⟨S1x1, .f32⟩
  | .hbm, ⟨34, _⟩ => ⟨S1, .f32⟩
  | .hbm, ⟨35, _⟩ => ⟨S1x1, .f32⟩
  | .hbm, ⟨36, _⟩ => ⟨S10000x1, .f32⟩
  | .hbm, ⟨37, _⟩ => ⟨S10000x1, .f32⟩
  | .hbm, ⟨38, _⟩ => ⟨S10000x512x1, .f32⟩
  | .hbm, ⟨39, _⟩ => ⟨S10000x512, .f32⟩
  | .hbm, ⟨40, _⟩ => ⟨S10000x1024, .f32⟩
  | .hbm, ⟨41, _⟩ => ⟨S1x1024, .f32⟩
  | .hbm, ⟨42, _⟩ => ⟨S10000x1024, .f32⟩
  | .hbm, ⟨43, _⟩ => ⟨S10000x1024, .f32⟩
  | .hbm, ⟨44, _⟩ => ⟨S10000x1024, .f32⟩
  | .hbm, ⟨45, _⟩ => ⟨S10000x1024, .f32⟩
  | .hbm, ⟨46, _⟩ => ⟨S_, .f32⟩
  | .hbm, ⟨47, _⟩ => ⟨S10000x1024, .f32⟩
  | .hbm, ⟨48, _⟩ => ⟨S10000x1024, .f32⟩
  | .hbm, ⟨49, _⟩ => ⟨S_, .f32⟩
  | .hbm, ⟨50, _⟩ => ⟨S10000x1024, .f32⟩
  | .hbm, ⟨51, _⟩ => ⟨S10000x1024, .f32⟩
  | .hbm, ⟨52, _⟩ => ⟨S10000x1024, .f32⟩
  | .hbm, ⟨53, _⟩ => ⟨S10000x1, .f32⟩
  | .hbm, ⟨54, _⟩ => ⟨S1x1, .f32⟩
  | .hbm, ⟨55, _⟩ => ⟨S10000x1, .f32⟩
  | .hbm, ⟨56, _⟩ => ⟨S10000x1, .f32⟩
  | .hbm, ⟨57, _⟩ => ⟨S1x10000x1, .f32⟩
  | .hbm, ⟨58, _⟩ => ⟨S1x10000x1, .f32⟩
  | .hbm, ⟨59, _⟩ => ⟨S1x10000x1, .f32⟩
  | .hbm, ⟨60, _⟩ => ⟨S1x10000x1, .f32⟩
  | .hbm, ⟨61, _⟩ => ⟨S4x10000x1, .f32⟩
  | .hbm, ⟨62, _⟩ => ⟨S_, .f32⟩
  | .hbm, ⟨63, _⟩ => ⟨S10000x1, .f32⟩
  | .hbm, ⟨64, _⟩ => ⟨S10000, .f32⟩
  | _, _ => ⟨S10000x512x1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  shapeCasts_S10000x512x1x4_S10000x512x4 : S10000x512x1x4.ShapeCasts S10000x512x4
  slices_S10000x512x4_S10000x512x1_0_0_0 : S10000x512x4.Slices ![0, 0, 0] S10000x512x1
  shapeCasts_S10000x512x1_S10000x512 : S10000x512x1.ShapeCasts S10000x512
  slices_S3x512x1_S1x512x1_0_0_0 : S3x512x1.Slices ![0, 0, 0] S1x512x1
  shapeCasts_S1x512x1_S512x1 : S1x512x1.ShapeCasts S512x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  slices_S10000x512x4_S10000x512x1_0_0_1 : S10000x512x4.Slices ![0, 0, 1] S10000x512x1
  slices_S3x512x1_S1x512x1_1_0_0 : S3x512x1.Slices ![1, 0, 0] S1x512x1
  slices_S3x1_S1x1_1_0 : S3x1.Slices ![1, 0] S1x1
  slices_S10000x512x4_S10000x512x1_0_0_2 : S10000x512x4.Slices ![0, 0, 2] S10000x512x1
  slices_S3x512x1_S1x512x1_2_0_0 : S3x512x1.Slices ![2, 0, 0] S1x512x1
  slices_S3x1_S1x1_2_0 : S3x1.Slices ![2, 0] S1x1
  slices_S10000x512x4_S10000x512x1_0_0_3 : S10000x512x4.Slices ![0, 0, 3] S10000x512x1
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  bcast_S10000x1_S1x10000x1_1_2 : S10000x1.BroadcastsInDim S1x10000x1 (![1, 2] : Fin 2 → Fin S1x10000x1.rank)
  concatenates_S1x10000x1_S1x10000x1_S1x10000x1_S1x10000x1_S4x10000x1_d0 : Shape.Concatenates [S1x10000x1, S1x10000x1, S1x10000x1, S1x10000x1] S4x10000x1 0
  reducesTo_S4x10000x1_S10000x1_d0 : S4x10000x1.ReducesTo [0] S10000x1
  h_S_ : 0 < S_.numel
  shapeCasts_S10000x1_S10000 : S10000x1.ShapeCasts S10000
  dot_S10000x512_S512x1_S10000x1_1_0_0_1_n_n_wf : DotDims.WF S10000x512 S512x1 S10000x1 [1] [0] [0] [1] [] []
  dot_S10000x512_S512x1024_S10000x1024_1_0_0_1_n_n_wf : DotDims.WF S10000x512 S512x1024 S10000x1024 [1] [0] [0] [1] [] []
  dot_S10000x1024_S1024x1_S10000x1_1_0_0_1_n_n_wf : DotDims.WF S10000x1024 S1024x1 S10000x1 [1] [0] [0] [1] [] []

variable [Facts₀]

def dot_S10000x512_S512x1_S10000x1_1_0_0_1_n_n : DotDims S10000x512 S512x1 S10000x1 where
  lhsContracting := [1]
  rhsContracting := [0]
  lhsNonContracting := [0]
  rhsNonContracting := [1]
  lhsBatch := []
  rhsBatch := []
  wf := dot_S10000x512_S512x1_S10000x1_1_0_0_1_n_n_wf
def dot_S10000x512_S512x1024_S10000x1024_1_0_0_1_n_n : DotDims S10000x512 S512x1024 S10000x1024 where
  lhsContracting := [1]
  rhsContracting := [0]
  lhsNonContracting := [0]
  rhsNonContracting := [1]
  lhsBatch := []
  rhsBatch := []
  wf := dot_S10000x512_S512x1024_S10000x1024_1_0_0_1_n_n_wf
def dot_S10000x1024_S1024x1_S10000x1_1_0_0_1_n_n : DotDims S10000x1024 S1024x1 S10000x1 where
  lhsContracting := [1]
  rhsContracting := [0]
  lhsNonContracting := [0]
  rhsNonContracting := [1]
  lhsBatch := []
  rhsBatch := []
  wf := dot_S10000x1024_S1024x1_S10000x1_1_0_0_1_n_n_wf

class Facts : Prop extends Facts₀ where

variable [Facts]
-- ==== Proof.BodyK.lean ====
/-
  The body of the one pallas_call, run once on whole staging buffers, and the proof data the pipeline library asks for.

  The call has ten windows. Windows 0–3 are the four 128-lane stripes of ONE array, the embedding viewed as
  [10000, 4, 4, 128] (node, stripe, residue, lane): window t stages block (i, t, 0, 0) of shape [1000, 1, 4, 128] at grid
  point i. Windows 4–8 are whole small arrays staged once (the 4 × 512 weight block, the first layer's matrix in
  bf16, its bias row, the head's weight row, the summed bias). Window 9 is the output column [10000, 1], block i of
  shape [1000, 1] written back at every point.

  The body only loads, computes and stores: sixteen loads of input buffers through literal rectangles (residue 3's
  row of each stripe, each stripe whole, four 4 × 128 cuts of the weight block, the rest whole), one load of the
  output buffer whose value is not used, and one store of the whole output buffer. So after the body every input
  buffer holds what it held, and the output buffer holds `stored`: that one store, as a pure function of the nine input
  buffers' contents.
-/
import proofs.«153232_g87316685128367_cont_sun_m_226_15_alg».proof.Proof.Gen.Kernel.Skeleton
import proofs.«153232_g87316685128367_cont_sun_m_226_15_alg».proof.Proof.Gen.Kernel.Launch
import proofs.«153232_g87316685128367_cont_sun_m_226_15_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds that window's block at every point, whether the point fetches it or
    not (an unfetched window's block index has not moved), for any proof data whose array is `V`'s and whose body
    leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds that window's block at every point, whether the point fetches it or
    not (an unfetched window's block index has not moved), for any proof data whose array is `V`'s and whose body
    leaves the block in place. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds that window's block at every point, whether the point fetches it or
    not (an unfetched window's block index has not moved), for any proof data whose array is `V`'s and whose body
    leaves the block in place. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds that window's block at every point, whether the point fetches it or
    not (an unfetched window's block index has not moved), for any proof data whose array is `V`'s and whose body
    leaves the block in place. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds that window's block at every point, whether the point fetches it or
    not (an unfetched window's block index has not moved), for any proof data whose array is `V`'s and whose body
    leaves the block in place. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds that window's block at every point, whether the point fetches it or
    not (an unfetched window's block index has not moved), for any proof data whose array is `V`'s and whose body
    leaves the block in place. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds that window's block at every point, whether the point fetches it or
    not (an unfetched window's block index has not moved), for any proof data whose array is `V`'s and whose body
    leaves the block in place. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds that window's block at every point, whether the point fetches it or
    not (an unfetched window's block index has not moved), for any proof data whose array is `V`'s and whose body
    leaves the block in place. -/
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds that window's block at every point, whether the point fetches it or
    not (an unfetched window's block index has not moved), for any proof data whose array is `V`'s and whose body
    leaves the block in place. -/
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes through -/

/-- Residue 3's row of a stripe: rows [0,1000) × {0} × {3} × lanes [0,128). -/
abbrev rLast : Rect S1000x1x4x128 := Rect.unit (s := S1000x1x4x128) ![0, 0, 3, 0] S1000x1x1x128.size inb_S1000x1x4x128_S1000x1x1x128_0_0_3_0
/-- A stripe whole. -/
abbrev rStripe : Rect S1000x1x4x128 := Rect.unit (s := S1000x1x4x128) ![0, 0, 0, 0] S1000x1x4x128.size inb_S1000x1x4x128_S1000x1x4x128_0_0_0_0
/-- The four 4 × 128 cuts of the weight block, at lanes 0, 128, 256, 384. -/
abbrev rCut0 : Rect S4x512 := Rect.unit (s := S4x512) ![0, 0] S4x128.size inb_S4x512_S4x128_0_0
abbrev rCut1 : Rect S4x512 := Rect.unit (s := S4x512) ![0, 128] S4x128.size inb_S4x512_S4x128_0_128
abbrev rCut2 : Rect S4x512 := Rect.unit (s := S4x512) ![0, 256] S4x128.size inb_S4x512_S4x128_0_256
abbrev rCut3 : Rect S4x512 := Rect.unit (s := S4x512) ![0, 384] S4x128.size inb_S4x512_S4x128_0_384
/-- The small arrays whole, and the output buffer whole. -/
abbrev rMat : Rect S512x1024 := Rect.unit (s := S512x1024) ![0, 0] S512x1024.size inb_S512x1024_S512x1024_0_0
abbrev rRow : Rect S1x1024 := Rect.unit (s := S1x1024) ![0, 0] S1x1024.size inb_S1x1024_S1x1024_0_0
abbrev rOne : Rect S1x1 := Rect.unit (s := S1x1) ![0, 0] S1x1.size inb_S1x1_S1x1_0_0
abbrev rOut : Rect S1000x1 := Rect.unit (s := S1000x1) ![0, 0] S1000x1.size inb_S1000x1_S1000x1_0_0

/-! ## What the body leaves in the output buffer -/

/-- The value the body stores, from the nine input buffers' contents: the skeleton's payloads of the sixteen loads. -/
def payload (x0 : Vec F S1000x1x4x128 .f32) (x1 : Vec F S1000x1x4x128 .f32) (x2 : Vec F S1000x1x4x128 .f32) (x3 : Vec F S1000x1x4x128 .f32) (x4 : Vec F S4x512 .f32) (x5 : Vec F S512x1024 .bf16) (x6 : Vec F S1x1024 .f32) (x7 : Vec F S1x1024 .f32) (x8 : Vec F S1x1 .f32) : FVec F S1000x1 .f32 :=
  k0_pay4 (k0_pay1 (View.ld x0 rLast) (View.ld x1 rLast) (View.ld x2 rLast) (View.ld x3 rLast) (View.ld x5 rMat) (View.ld x6 rRow) (View.ld x7 rRow))
    (k0_pay2 (View.ld x0 rStripe)) (k0_pay3 (View.ld x4 rCut0))
    (View.ld x1 rStripe) (View.ld x4 rCut1) (View.ld x2 rStripe) (View.ld x4 rCut2) (View.ld x3 rStripe) (View.ld x4 rCut3) (View.ld x8 rOne)

/-- The output buffer after the body: its one store, of the whole buffer. -/
def stored (x0 : Vec F S1000x1x4x128 .f32) (x1 : Vec F S1000x1x4x128 .f32) (x2 : Vec F S1000x1x4x128 .f32) (x3 : Vec F S1000x1x4x128 .f32) (x4 : Vec F S4x512 .f32) (x5 : Vec F S512x1024 .bf16) (x6 : Vec F S1x1024 .f32) (x7 : Vec F S1x1024 .f32) (x8 : Vec F S1x1 .f32) : Vec F S1000x1 .f32 :=
  View.canon [⟨rOut, payload x0 x1 x2 x3 x4 x5 x6 x7 x8⟩]

/-- That store covers the buffer. -/
theorem stored_cover (p0 : Vec F S1000x1 .f32) (y : S1000x1.Idx) :
    ∃ pc ∈ ([⟨rOut, p0⟩] : List (View.Piece (Elt F) S1000x1 .f32)), y ∈ pc.1.set :=
  View.cover_of_tiled [⟨rOut, p0⟩] S1000x1.size (by rfl) y

/-! ## The body's triple -/

set_option maxHeartbeats 4000000 in
/-- On whole staging buffers, the inputs' at contents `x0 … x8` and the output's at anything, the body runs to its
    continuation with the inputs' buffers as they were and the output's at `stored` of them. -/
theorem sound_kernel (c : Dev nD) (E : Set ℕ) (i : grid0.Coords) (arg1 : Memref sig .tc .vmem S1000x1x4x128 .f32) (harg1 : arg1.IsWhole) (arg2 : Memref sig .tc .vmem S1000x1x4x128 .f32) (harg2 : arg2.IsWhole) (arg3 : Memref sig .tc .vmem S1000x1x4x128 .f32) (harg3 : arg3.IsWhole) (arg4 : Memref sig .tc .vmem S1000x1x4x128 .f32) (harg4 : arg4.IsWhole) (arg5 : Memref sig .tc .vmem S4x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1000x1 .f32) (harg10 : arg10.IsWhole)
    (x0 : Vec F S1000x1x4x128 .f32) (x1 : Vec F S1000x1x4x128 .f32) (x2 : Vec F S1000x1x4x128 .f32) (x3 : Vec F S1000x1x4x128 .f32) (x4 : Vec F S4x512 .f32) (x5 : Vec F S512x1024 .bf16) (x6 : Vec F S1x1024 .f32) (x7 : Vec F S1x1024 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (stored x0 x1 x2 x3 x4 x5 x6 x7 x8)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8 arg9 harg9 arg10 harg10) K := by
  simp only [cc0__head_kernel_eq_skeleton]; unfold cc0__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (stored_cover _)

/-! ## The proof data -/

/-- The proof data of the pipeline on core `c`: the arrays as the call finds them; after the body at point `t` each
    input's buffer at its block and the output's at `stored` of the nine blocks; the invariant only the scoped rest and
    the generator register; nothing owed. The four stripes' windows read ONE array, so each holds a quarter of it;
    every other input array is held whole. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => stored (iblk V c 0 t) (iblk V c 1 t) (iblk V c 2 t) (iblk V c 3 t) (iblk V c 4 t) (iblk V c 5 t) (iblk V c 6 t) (iblk V c 7 t) (iblk V c 8 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = stored (iblk V c 0 t) (iblk V c 1 t) (iblk V c 2 t) (iblk V c 3 t) (iblk V c 4 t) (iblk V c 5 t) (iblk V c 6 t) (iblk V c 7 t) (iblk V c 8 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d
theorem before6 (c : Dev nD) (t : Fin cfg0.N) (d) : (dat V c).before 6 t d = iblk V c 6 t :=
  before6_of V (dat V c) (A_eq V c 6) (after6 V c) t d
theorem before7 (c : Dev nD) (t : Fin cfg0.N) (d) : (dat V c).before 7 t d = iblk V c 7 t :=
  before7_of V (dat V c) (A_eq V c 7) (after7 V c) t d
theorem before8 (c : Dev nD) (t : Fin cfg0.N) (d) : (dat V c).before 8 t d = iblk V c 8 t :=
  before8_of V (dat V c) (A_eq V c 8) (after8 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hand

end
-- ==== Proof.RunK.lean ====
/-
  The whole program run: the host operations before the call, the call, the reshape after it.

  Between two of these three stretches the core holds every unscoped buffer whole at a known valuation: the launch
  memory `W0`; after the host operations before the call `W1`; after the call `W2`, which is `W1` with the output
  column at what the ten write-backs leave; after the last reshape `W3`. Beside the buffers ride the generator
  register and the fact that the core owes nothing.

  The call's ten windows stand on SEVEN buffers: the four stripes' windows all read the embedding's [10000, 4, 4, 128]
  view. Entering the call, that buffer's points-to is cut into four quarters, one per stripe window (halving
  twice), and every other window's buffer is handed over whole; leaving it, the four quarters (the array unchanged:
  no input is ever written back) are glued again. These two steps are `arrays_of_arrBufs` and `arrBufs_of_arrays`.
-/
import proofs.«153232_g87316685128367_cont_sun_m_226_15_alg».proof.Proof.BodyK
import Idealize.ShloMosaic.Lib.Pipeline.Frame
import Idealize.ShloMosaic.Lib.Pipeline.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The seven buffers behind the ten windows -/

/-- The buffers behind the windows' arrays: the stripes' view once, then one per remaining window. -/
abbrev arrList : List (Ref sig .tc) := [main_v2, main_v5, main_v10, main_v11, main_v12, main_v9, main_v13]

theorem arrRefs_eq : Finset.univ.image (Pipeline.arrRef spec0) = arrList.toFinset := by decide

/-- A conjunction over those seven buffers, one by one. -/
theorem bigSep_arr {M : Type} [URA M] (Φ : Ref sig .tc → sProp M) :
    bigSep (Finset.univ.image (Pipeline.arrRef spec0)) Φ
      = iprop(Φ main_v2 ∗ Φ main_v5 ∗ Φ main_v10 ∗ Φ main_v11 ∗ Φ main_v12 ∗ Φ main_v9 ∗ Φ main_v13) :=
  bigSep_eq_bigSepL_of_eq arrList arrRefs_eq (by decide) Φ

section Shares

variable (V : (c : Dev nD) → (b : Ref sig .tc) → Buf (Elt F) ((c : Thread nD τ).loc b)) (c : Dev nD)
  (G : (w : Fin cfg0.W) → Buf (Elt F) ((cfg0.win w).arr.view.loc (c.tc : Thread nD τ)))
  (Vc : (b : Ref sig .tc) → Buf (Elt F) ((c.tc : Thread nD τ).loc b))

/-- ENTERING the call: the seven buffers whole at `Vc` give the ten windows' arrays at `G`, which reads `Vc` at each
    window's buffer: the stripes' buffer is halved twice, a quarter per stripe window. -/
theorem arrays_of_arrBufs (hG : ∀ w, G w = Vc (Pipeline.arrRef spec0 w)) :
    (Pipeline.arrBufs (Ix := Unit) (Name := ℕ) (U := UR sig nD τ) (Lvl := ℕ) spec0 c Vc : sProp 𝕄) ⊢ (dat V c).arrays G := by
  unfold Pipeline.arrBufs Dat.arrays
  rw [bigSep_W0, bigSep_arr]
  simp only [hG]
  rw [(arr_whole0 0).set_eq_univ, (arr_whole0 4).set_eq_univ, (arr_whole0 5).set_eq_univ, (arr_whole0 6).set_eq_univ,
    (arr_whole0 7).set_eq_univ, (arr_whole0 8).set_eq_univ, (arr_whole0 9).set_eq_univ]
  iintro ⟨H2, H5, H10, H11, H12, H9, H13⟩
  ihave H2' := (pointsTo_share (PosShare.mem_left_op_right fullShare)).1 $$ H2
  icases H2' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [Hll]; · iexact Hll
  isplitl [Hlr]; · iexact Hlr
  isplitl [Hrl]; · iexact Hrl
  isplitl [Hrr]; · iexact Hrr
  isplitl [H5]; · iexact H5
  isplitl [H10]; · iexact H10
  isplitl [H11]; · iexact H11
  isplitl [H12]; · iexact H12
  isplitl [H9]; · iexact H9
  iexact H13

/-- LEAVING the call: the ten windows' arrays at `G` give the seven buffers whole at any `Vc` that `G` reads: the four
    quarters of the stripes' buffer glued again. -/
theorem arrBufs_of_arrays (hG : ∀ w, G w = Vc (Pipeline.arrRef spec0 w)) :
    (dat V c).arrays G ⊢ (Pipeline.arrBufs (Ix := Unit) (Name := ℕ) (U := UR sig nD τ) (Lvl := ℕ) spec0 c Vc : sProp 𝕄) := by
  unfold Pipeline.arrBufs Dat.arrays
  rw [bigSep_W0, bigSep_arr]
  simp only [hG]
  rw [(arr_whole0 0).set_eq_univ, (arr_whole0 4).set_eq_univ, (arr_whole0 5).set_eq_univ, (arr_whole0 6).set_eq_univ,
    (arr_whole0 7).set_eq_univ, (arr_whole0 8).set_eq_univ, (arr_whole0 9).set_eq_univ]
  iintro ⟨Hll, Hlr, Hrl, Hrr, H5, H10, H11, H12, H9, H13⟩
  isplitl [Hll Hlr Hrl Hrr]
  · iapply (pointsTo_share (PosShare.mem_left_op_right fullShare)).2
    isplitl [Hll Hlr]
    · iapply (pointsTo_share (PosShare.mem_left_op_right fullShare.left)).2
      isplitl [Hll]; · iexact Hll
      iexact Hlr
    · iapply (pointsTo_share (PosShare.mem_left_op_right fullShare.right)).2
      isplitl [Hrl]; · iexact Hrl
      iexact Hrr
  isplitl [H5]; · iexact H5
  isplitl [H10]; · iexact H10
  isplitl [H11]; · iexact H11
  isplitl [H12]; · iexact H12
  isplitl [H9]; · iexact H9
  iexact H13

end Shares

variable (m : (ℓ : Loc nD τ sig) → Buf (Elt F) ℓ) (ρ : Dev nD → PrngReg)

/-! ## The buffers' contents at the three boundaries -/

/-- At launch. -/
abbrev W0 : Dev nD → Valuation τ sig (Elt F) := fun c b => (s₀ m ρ).mem ((c : Dev nD), b)
/-- After the host operations before the call. -/
abbrev W1 : Dev nD → Valuation τ sig (Elt F) := fun c => StableHlo.after hostOps0 (W0 m ρ c)
/-- The same read at the core's references: what the call's proof data take. -/
abbrev V1 : (c : Dev nD) → (b : Ref sig .tc) → Buf (Elt F) ((c : Thread nD τ).loc b) := fun c b => W1 m ρ c b
/-- The output column after the call's ten write-backs. -/
abbrev column (c : Dev nD) : Buf (Elt F) ((c : Thread nD τ).loc main_v13) := (dat (V1 m ρ) c).arrAt 9 cfg0.N
/-- After the call: the output column at what the write-backs leave, every other buffer as entered. -/
def W2 (c : Dev nD) : Valuation τ sig (Elt F) := Function.update (W1 m ρ c) (Proc.devRef .tc main_v13) (column m ρ c)
theorem W2_col (c : Dev nD) : W2 m ρ c (Proc.devRef .tc main_v13) = column m ρ c := by
  unfold W2; exact Function.update_self _ _ _
theorem W2_of_ne (c : Dev nD) (b : Ref sig .tc) (hb : b ≠ main_v13) : W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b
/-- After the last reshape. -/
abbrev W3 : Dev nD → Valuation τ sig (Elt F) := fun c => StableHlo.after hostOps1 (W2 m ρ c)

/-- Every window's array after the call is what `V2` has at its buffer: an input is never written back, and the
    output's buffer is where `W2` differs from `W1`. -/
theorem arrAt_V2 (c : Dev nD) (w : Fin cfg0.W) : (dat (V1 m ρ) c).arrAt w cfg0.N = V2 m ρ c (Pipeline.arrRef spec0 w) := by
  match w with
  | ⟨0, _⟩ => exact ((dat (V1 m ρ) c).arrAt_in 0 rfl _).trans ((A_eq (V1 m ρ) c 0).trans (W2_of_ne m ρ c _ (by decide)).symm)
  | ⟨1, _⟩ => exact ((dat (V1 m ρ) c).arrAt_in 1 rfl _).trans ((A_eq (V1 m ρ) c 1).trans (W2_of_ne m ρ c _ (by decide)).symm)
  | ⟨2, _⟩ => exact ((dat (V1 m ρ) c).arrAt_in 2 rfl _).trans ((A_eq (V1 m ρ) c 2).trans (W2_of_ne m ρ c _ (by decide)).symm)
  | ⟨3, _⟩ => exact ((dat (V1 m ρ) c).arrAt_in 3 rfl _).trans ((A_eq (V1 m ρ) c 3).trans (W2_of_ne m ρ c _ (by decide)).symm)
  | ⟨4, _⟩ => exact ((dat (V1 m ρ) c).arrAt_in 4 rfl _).trans ((A_eq (V1 m ρ) c 4).trans (W2_of_ne m ρ c _ (by decide)).symm)
  | ⟨5, _⟩ => exact ((dat (V1 m ρ) c).arrAt_in 5 rfl _).trans ((A_eq (V1 m ρ) c 5).trans (W2_of_ne m ρ c _ (by decide)).symm)
  | ⟨6, _⟩ => exact ((dat (V1 m ρ) c).arrAt_in 6 rfl _).trans ((A_eq (V1 m ρ) c 6).trans (W2_of_ne m ρ c _ (by decide)).symm)
  | ⟨7, _⟩ => exact ((dat (V1 m ρ) c).arrAt_in 7 rfl _).trans ((A_eq (V1 m ρ) c 7).trans (W2_of_ne m ρ c _ (by decide)).symm)
  | ⟨8, _⟩ => exact ((dat (V1 m ρ) c).arrAt_in 8 rfl _).trans ((A_eq (V1 m ρ) c 8).trans (W2_of_ne m ρ c _ (by decide)).symm)
  | ⟨9, _⟩ => exact (W2_col m ρ c).symm

/-- Off the windows' buffers nothing changed during the call. -/
theorem V2_rest (c : Dev nD) (b : Ref sig .tc) (hb : b ∉ Finset.univ.image (Pipeline.arrRef spec0)) : V2 m ρ c b = V1 m ρ c b :=
  W2_of_ne m ρ c b fun e => hb (Finset.mem_image.mpr ⟨9, Finset.mem_univ _, e.symm⟩)

/-- No host operation and no write-back touches `main_arg0`: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
/-- No host operation and no write-back touches `main_arg1`: it ends as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl
/-- No host operation and no write-back touches `main_arg2`: it ends as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl
/-- No host operation and no write-back touches `main_arg3`: it ends as launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl
/-- No host operation and no write-back touches `main_arg4`: it ends as launched. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl
/-- No host operation and no write-back touches `main_arg5`: it ends as launched. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg5) := rfl
/-- No host operation and no write-back touches `main_arg6`: it ends as launched. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.Forall, StableHlo.reshape_writes, Finset.mem_singleton]
          exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg6) := rfl

/-- The result: the last reshape of the output column. -/
theorem W3_result (c : Dev nD) :
    W3 m ρ c (Proc.devRef .tc main_v14) = shapeCast S10000 (column m ρ c) shapeCasts_S10000x1_S10000 := by
  show StableHlo.after hostOps1 (W2 m ρ c) (Proc.devRef .tc main_v14) = _
  after_results
  rw [W2_col]
  rfl

/-! ## The thread state and the segments -/

abbrev adm : (p : Fin 1) → (pcfgs (F := F) p).Adm := fun p => (cfgs p).toPCfg_adm
/-- The one pipeline's proof data, at the call's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE CALL as a segment: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_of_arrBufs (V1 m ρ) c _ (V1 m ρ c) fun w => A_eq (V1 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) := by
      rw [Pipeline.unscopedBufs_split₀ cfgs 0 winFacts₀0.arr_unscoped c (V2 m ρ c)]
      refine sep_mono (arrBufs_of_arrays (V1 m ρ) c _ (V2 m ρ c) fun w => arrAt_V2 m ρ c w) (Entails.of_eq ?_)
      unfold Pipeline.unscopedRest
      exact bigSep_congr fun b hb => by rw [V2_rest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's three stretches in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

/-- The last thread state: every unscoped buffer at `W3`, the generator register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE RUN. From any memory with zero counters every weakly fair execution of the program terminates without a
    fault; at the end the result buffer holds the reshape of the output column the ten write-backs leave, and every
    argument array holds what it held at launch. -/
theorem run : θ_run defs (onTc (τ := τ) (main (F := F))) ⟨m, fun _ => 0, ρ⟩ (fun r => ∀ c : Dev nD,
      r.2.mem ((c.tc : Thread nD τ).loc main_v14) = shapeCast S10000 (column m ρ c) shapeCasts_S10000x1_S10000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => ⟨(h c _ (mem_uc main_v14 (by decide))).trans (W3_result m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩)

end Cert.Kernel.Hand

end
-- ==== Proof.BodyI.lean ====
/-
  The body of the one pallas_call, run once on whole staging buffers, and the proof data the pipeline library asks for.

  The call has ten windows. Windows 0–3 are the four 128-lane stripes of ONE array, the embedding viewed as
  [10000, 4, 4, 128] (node, stripe, residue, lane): window t stages block (i, t, 0, 0) of shape [1000, 1, 4, 128] at grid
  point i. Windows 4–8 are whole small arrays staged once (the 4 × 512 weight block, the first layer's matrix in
  bf16, its bias row, the head's weight row, the summed bias). Window 9 is the output column [10000, 1], block i of
  shape [1000, 1] written back at every point.

  The body only loads, computes and stores: sixteen loads of input buffers through literal rectangles (residue 3's
  row of each stripe, each stripe whole, four 4 × 128 cuts of the weight block, the rest whole), one load of the
  output buffer whose value is not used, and one store of the whole output buffer. So after the body every input
  buffer holds what it held, and the output buffer holds `stored`: that one store, as a pure function of the nine input
  buffers' contents.
-/
import proofs.«153232_g87316685128367_cont_sun_m_226_15_alg».proof.Proof.Gen.KernelIdeal.Skeleton
import proofs.«153232_g87316685128367_cont_sun_m_226_15_alg».proof.Proof.Gen.KernelIdeal.Launch
import proofs.«153232_g87316685128367_cont_sun_m_226_15_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds that window's block at every point, whether the point fetches it or
    not (an unfetched window's block index has not moved), for any proof data whose array is `V`'s and whose body
    leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds that window's block at every point, whether the point fetches it or
    not (an unfetched window's block index has not moved), for any proof data whose array is `V`'s and whose body
    leaves the block in place. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds that window's block at every point, whether the point fetches it or
    not (an unfetched window's block index has not moved), for any proof data whose array is `V`'s and whose body
    leaves the block in place. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds that window's block at every point, whether the point fetches it or
    not (an unfetched window's block index has not moved), for any proof data whose array is `V`'s and whose body
    leaves the block in place. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds that window's block at every point, whether the point fetches it or
    not (an unfetched window's block index has not moved), for any proof data whose array is `V`'s and whose body
    leaves the block in place. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds that window's block at every point, whether the point fetches it or
    not (an unfetched window's block index has not moved), for any proof data whose array is `V`'s and whose body
    leaves the block in place. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds that window's block at every point, whether the point fetches it or
    not (an unfetched window's block index has not moved), for any proof data whose array is `V`'s and whose body
    leaves the block in place. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds that window's block at every point, whether the point fetches it or
    not (an unfetched window's block index has not moved), for any proof data whose array is `V`'s and whose body
    leaves the block in place. -/
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds that window's block at every point, whether the point fetches it or
    not (an unfetched window's block index has not moved), for any proof data whose array is `V`'s and whose body
    leaves the block in place. -/
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes through -/

/-- Residue 3's row of a stripe: rows [0,1000) × {0} × {3} × lanes [0,128). -/
abbrev rLast : Rect S1000x1x4x128 := Rect.unit (s := S1000x1x4x128) ![0, 0, 3, 0] S1000x1x1x128.size inb_S1000x1x4x128_S1000x1x1x128_0_0_3_0
/-- A stripe whole. -/
abbrev rStripe : Rect S1000x1x4x128 := Rect.unit (s := S1000x1x4x128) ![0, 0, 0, 0] S1000x1x4x128.size inb_S1000x1x4x128_S1000x1x4x128_0_0_0_0
/-- The four 4 × 128 cuts of the weight block, at lanes 0, 128, 256, 384. -/
abbrev rCut0 : Rect S4x512 := Rect.unit (s := S4x512) ![0, 0] S4x128.size inb_S4x512_S4x128_0_0
abbrev rCut1 : Rect S4x512 := Rect.unit (s := S4x512) ![0, 128] S4x128.size inb_S4x512_S4x128_0_128
abbrev rCut2 : Rect S4x512 := Rect.unit (s := S4x512) ![0, 256] S4x128.size inb_S4x512_S4x128_0_256
abbrev rCut3 : Rect S4x512 := Rect.unit (s := S4x512) ![0, 384] S4x128.size inb_S4x512_S4x128_0_384
/-- The small arrays whole, and the output buffer whole. -/
abbrev rMat : Rect S512x1024 := Rect.unit (s := S512x1024) ![0, 0] S512x1024.size inb_S512x1024_S512x1024_0_0
abbrev rRow : Rect S1x1024 := Rect.unit (s := S1x1024) ![0, 0] S1x1024.size inb_S1x1024_S1x1024_0_0
abbrev rOne : Rect S1x1 := Rect.unit (s := S1x1) ![0, 0] S1x1.size inb_S1x1_S1x1_0_0
abbrev rOut : Rect S1000x1 := Rect.unit (s := S1000x1) ![0, 0] S1000x1.size inb_S1000x1_S1000x1_0_0

/-! ## What the body leaves in the output buffer -/

/-- The value the body stores, from the nine input buffers' contents: the skeleton's payloads of the sixteen loads. -/
def payload (x0 : Vec F S1000x1x4x128 .f32) (x1 : Vec F S1000x1x4x128 .f32) (x2 : Vec F S1000x1x4x128 .f32) (x3 : Vec F S1000x1x4x128 .f32) (x4 : Vec F S4x512 .f32) (x5 : Vec F S512x1024 .bf16) (x6 : Vec F S1x1024 .f32) (x7 : Vec F S1x1024 .f32) (x8 : Vec F S1x1 .f32) : FVec F S1000x1 .f32 :=
  k0_pay4 (k0_pay1 (View.ld x0 rLast) (View.ld x1 rLast) (View.ld x2 rLast) (View.ld x3 rLast) (View.ld x5 rMat) (View.ld x6 rRow) (View.ld x7 rRow))
    (k0_pay2 (View.ld x0 rStripe)) (k0_pay3 (View.ld x4 rCut0))
    (View.ld x1 rStripe) (View.ld x4 rCut1) (View.ld x2 rStripe) (View.ld x4 rCut2) (View.ld x3 rStripe) (View.ld x4 rCut3) (View.ld x8 rOne)

/-- The output buffer after the body: its one store, of the whole buffer. -/
def stored (x0 : Vec F S1000x1x4x128 .f32) (x1 : Vec F S1000x1x4x128 .f32) (x2 : Vec F S1000x1x4x128 .f32) (x3 : Vec F S1000x1x4x128 .f32) (x4 : Vec F S4x512 .f32) (x5 : Vec F S512x1024 .bf16) (x6 : Vec F S1x1024 .f32) (x7 : Vec F S1x1024 .f32) (x8 : Vec F S1x1 .f32) : Vec F S1000x1 .f32 :=
  View.canon [⟨rOut, payload x0 x1 x2 x3 x4 x5 x6 x7 x8⟩]

/-- That store covers the buffer. -/
theorem stored_cover (p0 : Vec F S1000x1 .f32) (y : S1000x1.Idx) :
    ∃ pc ∈ ([⟨rOut, p0⟩] : List (View.Piece (Elt F) S1000x1 .f32)), y ∈ pc.1.set :=
  View.cover_of_tiled [⟨rOut, p0⟩] S1000x1.size (by rfl) y

/-! ## The body's triple -/

set_option maxHeartbeats 4000000 in
/-- On whole staging buffers, the inputs' at contents `x0 … x8` and the output's at anything, the body runs to its
    continuation with the inputs' buffers as they were and the output's at `stored` of them. -/
theorem sound_kernel (c : Dev nD) (E : Set ℕ) (i : grid0.Coords) (arg1 : Memref sig .tc .vmem S1000x1x4x128 .f32) (harg1 : arg1.IsWhole) (arg2 : Memref sig .tc .vmem S1000x1x4x128 .f32) (harg2 : arg2.IsWhole) (arg3 : Memref sig .tc .vmem S1000x1x4x128 .f32) (harg3 : arg3.IsWhole) (arg4 : Memref sig .tc .vmem S1000x1x4x128 .f32) (harg4 : arg4.IsWhole) (arg5 : Memref sig .tc .vmem S4x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1000x1 .f32) (harg10 : arg10.IsWhole)
    (x0 : Vec F S1000x1x4x128 .f32) (x1 : Vec F S1000x1x4x128 .f32) (x2 : Vec F S1000x1x4x128 .f32) (x3 : Vec F S1000x1x4x128 .f32) (x4 : Vec F S4x512 .f32) (x5 : Vec F S512x1024 .bf16) (x6 : Vec F S1x1024 .f32) (x7 : Vec F S1x1024 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (stored x0 x1 x2 x3 x4 x5 x6 x7 x8)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8 arg9 harg9 arg10 harg10) K := by
  simp only [cc0__head_kernel_eq_skeleton]; unfold cc0__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (stored_cover _)

/-! ## The proof data -/

/-- The proof data of the pipeline on core `c`: the arrays as the call finds them; after the body at point `t` each
    input's buffer at its block and the output's at `stored` of the nine blocks; the invariant only the scoped rest and
    the generator register; nothing owed. The four stripes' windows read ONE array, so each holds a quarter of it;
    every other input array is held whole. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => stored (iblk V c 0 t) (iblk V c 1 t) (iblk V c 2 t) (iblk V c 3 t) (iblk V c 4 t) (iblk V c 5 t) (iblk V c 6 t) (iblk V c 7 t) (iblk V c 8 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = stored (iblk V c 0 t) (iblk V c 1 t) (iblk V c 2 t) (iblk V c 3 t) (iblk V c 4 t) (iblk V c 5 t) (iblk V c 6 t) (iblk V c 7 t) (iblk V c 8 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d
theorem before6 (c : Dev nD) (t : Fin cfg0.N) (d) : (dat V c).before 6 t d = iblk V c 6 t :=
  before6_of V (dat V c) (A_eq V c 6) (after6 V c) t d
theorem before7 (c : Dev nD) (t : Fin cfg0.N) (d) : (dat V c).before 7 t d = iblk V c 7 t :=
  before7_of V (dat V c) (A_eq V c 7) (after7 V c) t d
theorem before8 (c : Dev nD) (t : Fin cfg0.N) (d) : (dat V c).before 8 t d = iblk V c 8 t :=
  before8_of V (dat V c) (A_eq V c 8) (after8 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.ColumnI.lean ====
/-
  The output column after the call, in closed form.

  The column [10000, 1] is written back in ten blocks of 1000 rows, block i at grid point i, and the blocks tile it.
  So row n of the final column is row n mod 1000 of what point n / 1000 stored, and that is the body's stored value
  of the nine input blocks at that point.
-/
import proofs.«153232_g87316685128367_cont_sun_m_226_15_alg».proof.Proof.BodyI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem zero2 : (![0, 0] : Fin 2 → Nat) = fun _ => 0 := funext fun a => by fin_cases a <;> rfl

/-- What grid point `p` stores, read at row `r` of its block. -/
def colAt (c : Dev nD) (p : Fin cfg0.N) (r : Fin 1000) : Elt F .f32 :=
  payload (iblk V c 0 p) (iblk V c 1 p) (iblk V c 2 p) (iblk V c 3 p) (iblk V c 4 p) (iblk V c 5 p) (iblk V c 6 p) (iblk V c 7 p) (iblk V c 8 p) (ValueIdx.ix2 r (0 : Fin 1))

/-- The grid point whose block holds row `n` of the column, and the row inside that block. -/
def pointOf (n : Fin 10000) : Fin cfg0.N :=
  ⟨n.val / 1000, by have hN : grid0.N = 10 := N_0; show n.val / 1000 < grid0.N; have := n.isLt; omega⟩
def rowOf (n : Fin 10000) : Fin 1000 := ⟨n.val % 1000, Nat.mod_lt _ (by decide)⟩

/-- The column, row by row. -/
def colG (c : Dev nD) : S10000x1.Idx → Elt F .f32 := fun i => colAt V c (pointOf (i 0)) (rowOf (i 0))

/-- The output window's block index at point `t` is (t, 0). -/
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- What point `t` writes back is block `t` of the closed form. -/
theorem flushed9_eq (c : Dev nD) (t : Fin cfg0.N) :
    (dat V c).flushed 9 t = ((cfg0.win 9).blk t).view.read (Elt F) (colG V c) := by
  show (cfg0.win 9).cut (grid0.coords t) ((dat V c).after 9 t) = _
  rw [after9]
  unfold stored
  rw [View.canon_unit_zero zero2]
  funext j
  obtain ⟨e0, e1⟩ := idx9 t
  have hj0 : (j 0).val < 1000 := (j 0).isLt
  have hj1 : (j 1).val < 1 := (j 1).isLt
  have hj : j = ValueIdx.ix2 (⟨(j 0).val, hj0⟩ : Fin 1000) (0 : Fin 1) := by
    funext a; apply Fin.ext
    match a with
    | ⟨0, _⟩ => rfl
    | ⟨1, _⟩ => show (j 1).val = 0; omega
  have hp : pointOf ((((cfg0.win 9).blk t).view.emb j) 0) = t :=
    Fin.ext (by show (win0_9.index t (0 : Fin 2) * 1000 + 1 * (j 0).val) / 1000 = t.val; omega)
  have hr : rowOf ((((cfg0.win 9).blk t).view.emb j) 0) = ⟨(j 0).val, hj0⟩ :=
    Fin.ext (by show (win0_9.index t (0 : Fin 2) * 1000 + 1 * (j 0).val) % 1000 = (j 0).val; omega)
  show payload (iblk V c 0 t) (iblk V c 1 t) (iblk V c 2 t) (iblk V c 3 t) (iblk V c 4 t) (iblk V c 5 t) (iblk V c 6 t) (iblk V c 7 t) (iblk V c 8 t) j
    = colAt V c (pointOf ((((cfg0.win 9).blk t).view.emb j) 0)) (rowOf ((((cfg0.win 9).blk t).view.emb j) 0))
  rw [hp, hr]
  unfold colAt
  exact congrArg _ hj

/-- An index of the column lies in point `t`'s block iff each coordinate lies in the block's range on its axis. -/
theorem mem_blk9 (t : Fin cfg0.N) (i : S10000x1.Idx) :
    i ∈ ((cfg0.win 9).blk t).view.set ↔ ∀ a : Fin 2, win0_9.index t a * S1000x1.size a ≤ (i a).val ∧ (i a).val < win0_9.index t a * S1000x1.size a + S1000x1.size a := by
  show i ∈ ((View.whole main_v13).slice (win0_9.rect t)).set ↔ _
  rw [View.set_slice_whole, Rect.mem_set_unit]
  exact Iff.rfl

/-- Every row is in the block of its point. -/
theorem cover9 (i : S10000x1.Idx) : ∃ t : Fin cfg0.N, (cfg0.win 9).flush t = true ∧ i ∈ ((cfg0.win 9).blk t).view.set := by
  have hi0 : (i 0).val < 10000 := (i 0).isLt
  have hi1 : (i 1).val < 1 := (i 1).isLt
  refine ⟨pointOf (i 0), flush0_9 _, ?_⟩
  rw [mem_blk9]
  obtain ⟨e0, e1⟩ := idx9 (pointOf (i 0))
  have ep : (pointOf (i 0)).val = (i 0).val / 1000 := rfl
  intro a
  match a with
  | ⟨0, _⟩ =>
    show win0_9.index (pointOf (i 0)) (0 : Fin 2) * 1000 ≤ (i 0).val ∧ (i 0).val < win0_9.index (pointOf (i 0)) (0 : Fin 2) * 1000 + 1000
    omega
  | ⟨1, _⟩ =>
    show win0_9.index (pointOf (i 0)) (1 : Fin 2) * 1 ≤ (i 1).val ∧ (i 1).val < win0_9.index (pointOf (i 0)) (1 : Fin 2) * 1 + 1
    omega

/-- The column after the ten write-backs is the closed form. -/
theorem column_eq (c : Dev nD) : (dat V c).arrAt 9 cfg0.N = colG V c :=
  (dat V c).arrAt_eq_of_cover 9 (colG V c) (fun t _ => flushed9_eq V c t) (cover9)

end Cert.KernelIdeal.Hand

end
-- ==== Proof.Spec.lean ====
/-
  The result both programs compute, as functions of the argument arrays read at plain indices.

  Write x n k r for the embedding at node n, channel k, residue r (its unit axis dropped). Residues 0, 1, 2 each
  pass through a 512 → 1 linear head, residue 3 through a 512 → 1024 layer, h ↦ h · σ(h), and a 1024 → 1 head;
  a node's result is the sum of the four heads with their biases.

  `out` groups the sum head by head (each head's bias inside it). `kout` groups it as a fused kernel does: the
  1024-wide head first; then the three linear heads as ONE elementwise product against a 4 × 512 weight block whose
  last row is zero, summed lane by lane over four stripes of 128 channels (k = 128·t + l) and then over the four
  residues; then all biases at once. The two agree on the extended reals by commutativity and associativity of +
  and by x · 0 = 0 alone.
-/
import Idealize.ShloMosaic.PureOps.Ideal
import Mathlib.Algebra.BigOperators.Fin

noncomputable section

namespace Cert.Spec

open Idealize.ShloMosaic

variable (x : Fin 10000 → Fin 512 → Fin 4 → EReal) (wlin : Fin 3 → Fin 512 → EReal) (blin : Fin 3 → EReal)
  (w1 : Fin 512 → Fin 1024 → EReal) (b1 : Fin 1024 → EReal) (w2 : Fin 1024 → EReal) (b2 : EReal)

/-- Residue 3's row of node `n` against column `j` of the first layer, plus that column's bias. -/
def hid (n : Fin 10000) (j : Fin 1024) : EReal := (0 + ∑ k : Fin 512, x n k 3 * w1 k j) + b1 j

/-- h · σ(h). -/
def silu (h : EReal) : EReal := h * Ideal.logistic h

/-- The non-linear head of node `n`. -/
def mlp (n : Fin 10000) : EReal := (0 + ∑ j : Fin 1024, silu (hid x w1 b1 n j) * w2 j) + b2

/-- Linear head `i` of node `n`. -/
def lin (i : Fin 3) (n : Fin 10000) : EReal := (0 + ∑ k : Fin 512, x n k i.castSucc * wlin i k) + blin i

/-- Head `s` of node `n`: linear for s < 3, the non-linear one for s = 3. -/
def head (s : Fin 4) (n : Fin 10000) : EReal := if h : s.val < 3 then lin x wlin blin ⟨s.val, h⟩ n else mlp x w1 b1 w2 b2 n

/-- Head by head. -/
def out (n : Fin 10000) : EReal := 0 + ∑ s : Fin 4, head x wlin blin w1 b1 w2 b2 s n

/-- The 4 × 512 weight block: the three linear heads' weights, then a zero row. -/
def wl (r : Fin 4) (k : Fin 512) : EReal := if h : r.val < 3 then wlin ⟨r.val, h⟩ k else 0

/-- Channel 128·t + l. -/
def chan (t : Fin 4) (l : Fin 128) : Fin 512 := ⟨128 * t.val + l.val, by have := t.isLt; have := l.isLt; omega⟩

/-- One of four, by position. -/
def pick4 {α : Type} (a b c d : α) : Fin 4 → α
  | ⟨0, _⟩ => a | ⟨1, _⟩ => b | ⟨2, _⟩ => c | ⟨3, _⟩ => d

/-- The fused grouping for ONE node, over whatever the body has in hand: the node's residue-3 row `xl` (512 channels),
    its four stripes `xs t r l` (stripe, residue, lane), a weight block `wb t r l` laid out the same way, the first
    layer `w1`, `b1`, the head weights `w2` and ONE scalar `bias`: the 1024-wide head, plus the lane-by-lane and then
    residue-by-residue sum of the four stripes' products added left to right, plus the bias. -/
def kform (xl : Fin 512 → EReal) (xs wb : Fin 4 → Fin 4 → Fin 128 → EReal) (w1 : Fin 512 → Fin 1024 → EReal)
    (b1 w2 : Fin 1024 → EReal) (bias : EReal) : EReal :=
  ((0 + ∑ j : Fin 1024, (((0 + ∑ k : Fin 512, xl k * w1 k j) + b1 j) * Ideal.logistic ((0 + ∑ k : Fin 512, xl k * w1 k j) + b1 j)) * w2 j)
      + (0 + ∑ r : Fin 4, (0 + ∑ l : Fin 128,
          (((xs 0 r l * wb 0 r l + xs 1 r l * wb 1 r l) + xs 2 r l * wb 2 r l) + xs 3 r l * wb 3 r l))))
    + bias

/-- All the biases at once: the three linear heads', then the last head's. -/
def biasAll : EReal := (0 + ∑ a : Fin 3, blin a) + b2

/-- The fused grouping of node `n`, from the argument arrays: its residue-3 row, its stripes (channel 128·t + l), the
    4 × 512 weight block cut into the same stripes, and all the biases added up front. -/
def kout (n : Fin 10000) : EReal :=
  kform (fun k => x n k 3) (fun t r l => x n (chan t l) r) (fun t r l => wl wlin r (chan t l)) w1 b1 w2
    (biasAll blin b2)

end Cert.Spec

end
-- ==== Proof.BlocksI.lean ====
/-
  The nine input blocks and the body's sixteen loads, read at an index.

  A window's block at grid point p is its array read through the block's rectangle: coordinate `a` of the array is
  (block index on a) · (block extent on a) + (coordinate inside the block). Stripe t's block index at point p is
  (p, t, 0, 0) with extents [1000, 1, 4, 128], so row r of the block is node 1000·p + r of stripe t; the five small
  windows have block index (0, 0) and stage their arrays whole. A load through a rectangle reads the buffer at the
  rectangle's offset plus the coordinate: residue 3's row sits at offset 3 on the residue axis, weight cut t at lane
  offset 128·t.
-/
import proofs.«153232_g87316685128367_cont_sun_m_226_15_alg».proof.Proof.ColumnI
import proofs.«153232_g87316685128367_cont_sun_m_226_15_alg».proof.Proof.Spec

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- Row `r` of point `p`'s block is node 1000·p + r. -/
def node (p : Fin cfg0.N) (r : Fin 1000) : Fin 10000 :=
  ⟨1000 * p.val + r.val, by have hN : grid0.N = 10 := N_0; have hp : p.val < grid0.N := p.isLt; have := r.isLt; omega⟩

theorem node_pointOf_rowOf (n : Fin 10000) : node (pointOf n) (rowOf n) = n :=
  Fin.ext (by show 1000 * (n.val / 1000) + n.val % 1000 = n.val; omega)

/-! ## The stripes' blocks -/

theorem idxS0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)
/-- Stripe 0's block at point `p`, row `r`, residue `q`, lane `l`: the view at node 1000·p + r, stripe 0. -/
theorem stripe0_at (c : Dev nD) (p : Fin cfg0.N) (r : Fin 1000) (q : Fin 4) (l : Fin 128) :
    iblk V c 0 p (ValueIdx.ix4 r (0 : Fin 1) q l) = V c main_v2 (ValueIdx.ix4 (node p r) (0 : Fin 4) q l) := by
  obtain ⟨e0, e1, e2, e3⟩ := idxS0 p
  show V c main_v2 (((cfg0.win 0).blk p).view.emb (ValueIdx.ix4 r (0 : Fin 1) q l)) = _
  congr 1
  funext a; apply Fin.ext
  match a with
  | ⟨0, _⟩ => show win0_0.index p (0 : Fin 4) * 1000 + 1 * r.val = 1000 * p.val + r.val; omega
  | ⟨1, _⟩ => show win0_0.index p (1 : Fin 4) * 1 + 1 * 0 = 0; omega
  | ⟨2, _⟩ => show win0_0.index p (2 : Fin 4) * 4 + 1 * q.val = q.val; omega
  | ⟨3, _⟩ => show win0_0.index p (3 : Fin 4) * 128 + 1 * l.val = l.val; omega

theorem idxS1 : ∀ t : Fin cfg0.N, win0_1.index t (0 : Fin 4) = t.val ∧ win0_1.index t (1 : Fin 4) = 1
    ∧ win0_1.index t (2 : Fin 4) = 0 ∧ win0_1.index t (3 : Fin 4) = 0 :=
  (by decide +kernel : ∀ t : Fin grid0.N, win0_1.index t (0 : Fin 4) = t.val ∧ win0_1.index t (1 : Fin 4) = 1
    ∧ win0_1.index t (2 : Fin 4) = 0 ∧ win0_1.index t (3 : Fin 4) = 0)
/-- Stripe 1's block at point `p`, row `r`, residue `q`, lane `l`: the view at node 1000·p + r, stripe 1. -/
theorem stripe1_at (c : Dev nD) (p : Fin cfg0.N) (r : Fin 1000) (q : Fin 4) (l : Fin 128) :
    iblk V c 1 p (ValueIdx.ix4 r (0 : Fin 1) q l) = V c main_v2 (ValueIdx.ix4 (node p r) (1 : Fin 4) q l) := by
  obtain ⟨e0, e1, e2, e3⟩ := idxS1 p
  show V c main_v2 (((cfg0.win 1).blk p).view.emb (ValueIdx.ix4 r (0 : Fin 1) q l)) = _
  congr 1
  funext a; apply Fin.ext
  match a with
  | ⟨0, _⟩ => show win0_1.index p (0 : Fin 4) * 1000 + 1 * r.val = 1000 * p.val + r.val; omega
  | ⟨1, _⟩ => show win0_1.index p (1 : Fin 4) * 1 + 1 * 0 = 1; omega
  | ⟨2, _⟩ => show win0_1.index p (2 : Fin 4) * 4 + 1 * q.val = q.val; omega
  | ⟨3, _⟩ => show win0_1.index p (3 : Fin 4) * 128 + 1 * l.val = l.val; omega

theorem idxS2 : ∀ t : Fin cfg0.N, win0_2.index t (0 : Fin 4) = t.val ∧ win0_2.index t (1 : Fin 4) = 2
    ∧ win0_2.index t (2 : Fin 4) = 0 ∧ win0_2.index t (3 : Fin 4) = 0 :=
  (by decide +kernel : ∀ t : Fin grid0.N, win0_2.index t (0 : Fin 4) = t.val ∧ win0_2.index t (1 : Fin 4) = 2
    ∧ win0_2.index t (2 : Fin 4) = 0 ∧ win0_2.index t (3 : Fin 4) = 0)
/-- Stripe 2's block at point `p`, row `r`, residue `q`, lane `l`: the view at node 1000·p + r, stripe 2. -/
theorem stripe2_at (c : Dev nD) (p : Fin cfg0.N) (r : Fin 1000) (q : Fin 4) (l : Fin 128) :
    iblk V c 2 p (ValueIdx.ix4 r (0 : Fin 1) q l) = V c main_v2 (ValueIdx.ix4 (node p r) (2 : Fin 4) q l) := by
  obtain ⟨e0, e1, e2, e3⟩ := idxS2 p
  show V c main_v2 (((cfg0.win 2).blk p).view.emb (ValueIdx.ix4 r (0 : Fin 1) q l)) = _
  congr 1
  funext a; apply Fin.ext
  match a with
  | ⟨0, _⟩ => show win0_2.index p (0 : Fin 4) * 1000 + 1 * r.val = 1000 * p.val + r.val; omega
  | ⟨1, _⟩ => show win0_2.index p (1 : Fin 4) * 1 + 1 * 0 = 2; omega
  | ⟨2, _⟩ => show win0_2.index p (2 : Fin 4) * 4 + 1 * q.val = q.val; omega
  | ⟨3, _⟩ => show win0_2.index p (3 : Fin 4) * 128 + 1 * l.val = l.val; omega

theorem idxS3 : ∀ t : Fin cfg0.N, win0_3.index t (0 : Fin 4) = t.val ∧ win0_3.index t (1 : Fin 4) = 3
    ∧ win0_3.index t (2 : Fin 4) = 0 ∧ win0_3.index t (3 : Fin 4) = 0 :=
  (by decide +kernel : ∀ t : Fin grid0.N, win0_3.index t (0 : Fin 4) = t.val ∧ win0_3.index t (1 : Fin 4) = 3
    ∧ win0_3.index t (2 : Fin 4) = 0 ∧ win0_3.index t (3 : Fin 4) = 0)
/-- Stripe 3's block at point `p`, row `r`, residue `q`, lane `l`: the view at node 1000·p + r, stripe 3. -/
theorem stripe3_at (c : Dev nD) (p : Fin cfg0.N) (r : Fin 1000) (q : Fin 4) (l : Fin 128) :
    iblk V c 3 p (ValueIdx.ix4 r (0 : Fin 1) q l) = V c main_v2 (ValueIdx.ix4 (node p r) (3 : Fin 4) q l) := by
  obtain ⟨e0, e1, e2, e3⟩ := idxS3 p
  show V c main_v2 (((cfg0.win 3).blk p).view.emb (ValueIdx.ix4 r (0 : Fin 1) q l)) = _
  congr 1
  funext a; apply Fin.ext
  match a with
  | ⟨0, _⟩ => show win0_3.index p (0 : Fin 4) * 1000 + 1 * r.val = 1000 * p.val + r.val; omega
  | ⟨1, _⟩ => show win0_3.index p (1 : Fin 4) * 1 + 1 * 0 = 3; omega
  | ⟨2, _⟩ => show win0_3.index p (2 : Fin 4) * 4 + 1 * q.val = q.val; omega
  | ⟨3, _⟩ => show win0_3.index p (3 : Fin 4) * 128 + 1 * l.val = l.val; omega

/-! ## The small windows' blocks -/

theorem idxW4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 4 stages its whole array at every point. -/
theorem whole4_at (c : Dev nD) (p : Fin cfg0.N) (i : Fin 4) (j : Fin 512) :
    iblk V c 4 p (ValueIdx.ix2 i j) = V c main_v5 (ValueIdx.ix2 i j) := by
  obtain ⟨e0, e1⟩ := idxW4 p
  show V c main_v5 (((cfg0.win 4).blk p).view.emb (ValueIdx.ix2 i j)) = _
  congr 1
  funext a; apply Fin.ext
  match a with
  | ⟨0, _⟩ => show win0_4.index p (0 : Fin 2) * 4 + 1 * i.val = i.val; omega
  | ⟨1, _⟩ => show win0_4.index p (1 : Fin 2) * 512 + 1 * j.val = j.val; omega

theorem idxW5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 5 stages its whole array at every point. -/
theorem whole5_at (c : Dev nD) (p : Fin cfg0.N) (i : Fin 512) (j : Fin 1024) :
    iblk V c 5 p (ValueIdx.ix2 i j) = V c main_v10 (ValueIdx.ix2 i j) := by
  obtain ⟨e0, e1⟩ := idxW5 p
  show V c main_v10 (((cfg0.win 5).blk p).view.emb (ValueIdx.ix2 i j)) = _
  congr 1
  funext a; apply Fin.ext
  match a with
  | ⟨0, _⟩ => show win0_5.index p (0 : Fin 2) * 512 + 1 * i.val = i.val; omega
  | ⟨1, _⟩ => show win0_5.index p (1 : Fin 2) * 1024 + 1 * j.val = j.val; omega

theorem idxW6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 6 stages its whole array at every point. -/
theorem whole6_at (c : Dev nD) (p : Fin cfg0.N) (i : Fin 1) (j : Fin 1024) :
    iblk V c 6 p (ValueIdx.ix2 i j) = V c main_v11 (ValueIdx.ix2 i j) := by
  obtain ⟨e0, e1⟩ := idxW6 p
  show V c main_v11 (((cfg0.win 6).blk p).view.emb (ValueIdx.ix2 i j)) = _
  congr 1
  funext a; apply Fin.ext
  match a with
  | ⟨0, _⟩ => show win0_6.index p (0 : Fin 2) * 1 + 1 * i.val = i.val; omega
  | ⟨1, _⟩ => show win0_6.index p (1 : Fin 2) * 1024 + 1 * j.val = j.val; omega

theorem idxW7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 7 stages its whole array at every point. -/
theorem whole7_at (c : Dev nD) (p : Fin cfg0.N) (i : Fin 1) (j : Fin 1024) :
    iblk V c 7 p (ValueIdx.ix2 i j) = V c main_v12 (ValueIdx.ix2 i j) := by
  obtain ⟨e0, e1⟩ := idxW7 p
  show V c main_v12 (((cfg0.win 7).blk p).view.emb (ValueIdx.ix2 i j)) = _
  congr 1
  funext a; apply Fin.ext
  match a with
  | ⟨0, _⟩ => show win0_7.index p (0 : Fin 2) * 1 + 1 * i.val = i.val; omega
  | ⟨1, _⟩ => show win0_7.index p (1 : Fin 2) * 1024 + 1 * j.val = j.val; omega

theorem idxW8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 8 stages its whole array at every point. -/
theorem whole8_at (c : Dev nD) (p : Fin cfg0.N) (i : Fin 1) (j : Fin 1) :
    iblk V c 8 p (ValueIdx.ix2 i j) = V c main_v9 (ValueIdx.ix2 i j) := by
  obtain ⟨e0, e1⟩ := idxW8 p
  show V c main_v9 (((cfg0.win 8).blk p).view.emb (ValueIdx.ix2 i j)) = _
  congr 1
  funext a; apply Fin.ext
  match a with
  | ⟨0, _⟩ => show win0_8.index p (0 : Fin 2) * 1 + 1 * i.val = i.val; omega
  | ⟨1, _⟩ => show win0_8.index p (1 : Fin 2) * 1 + 1 * j.val = j.val; omega

/-! ## The loads through rectangles at an offset -/

/-- Residue 3's row of a stripe buffer. -/
theorem last_at (x : Vec F S1000x1x4x128 .f32) (r : Fin 1000) (l : Fin 128) :
    View.ld x rLast (ValueIdx.ix4 r (0 : Fin 1) (0 : Fin 1) l) = x (ValueIdx.ix4 r (0 : Fin 1) (3 : Fin 4) l) := by
  show x (rLast.emb (ValueIdx.ix4 r (0 : Fin 1) (0 : Fin 1) l)) = _
  congr 1
  funext a; apply Fin.ext
  match a with
  | ⟨0, _⟩ => show 0 + 1 * r.val = r.val; omega
  | ⟨1, _⟩ => show 0 + 1 * 0 = 0; omega
  | ⟨2, _⟩ => show 3 + 1 * 0 = 3; omega
  | ⟨3, _⟩ => show 0 + 1 * l.val = l.val; omega

/-- Cut 0 of the weight block reads lanes 0 … 127. -/
theorem cut0_at (x : Vec F S4x512 .f32) (q : Fin 4) (l : Fin 128) :
    View.ld x rCut0 (ValueIdx.ix2 q l) = x (ValueIdx.ix2 q (Cert.Spec.chan (0 : Fin 4) l)) := by
  show x (rCut0.emb (ValueIdx.ix2 q l)) = _
  congr 1
  funext a; apply Fin.ext
  match a with
  | ⟨0, _⟩ => show 0 + 1 * q.val = q.val; omega
  | ⟨1, _⟩ => show 0 + 1 * l.val = 128 * 0 + l.val; omega

/-- Cut 1 of the weight block reads lanes 128 … 255. -/
theorem cut1_at (x : Vec F S4x512 .f32) (q : Fin 4) (l : Fin 128) :
    View.ld x rCut1 (ValueIdx.ix2 q l) = x (ValueIdx.ix2 q (Cert.Spec.chan (1 : Fin 4) l)) := by
  show x (rCut1.emb (ValueIdx.ix2 q l)) = _
  congr 1
  funext a; apply Fin.ext
  match a with
  | ⟨0, _⟩ => show 0 + 1 * q.val = q.val; omega
  | ⟨1, _⟩ => show 128 + 1 * l.val = 128 * 1 + l.val; omega

/-- Cut 2 of the weight block reads lanes 256 … 383. -/
theorem cut2_at (x : Vec F S4x512 .f32) (q : Fin 4) (l : Fin 128) :
    View.ld x rCut2 (ValueIdx.ix2 q l) = x (ValueIdx.ix2 q (Cert.Spec.chan (2 : Fin 4) l)) := by
  show x (rCut2.emb (ValueIdx.ix2 q l)) = _
  congr 1
  funext a; apply Fin.ext
  match a with
  | ⟨0, _⟩ => show 0 + 1 * q.val = q.val; omega
  | ⟨1, _⟩ => show 256 + 1 * l.val = 128 * 2 + l.val; omega

/-- Cut 3 of the weight block reads lanes 384 … 511. -/
theorem cut3_at (x : Vec F S4x512 .f32) (q : Fin 4) (l : Fin 128) :
    View.ld x rCut3 (ValueIdx.ix2 q l) = x (ValueIdx.ix2 q (Cert.Spec.chan (3 : Fin 4) l)) := by
  show x (rCut3.emb (ValueIdx.ix2 q l)) = _
  congr 1
  funext a; apply Fin.ext
  match a with
  | ⟨0, _⟩ => show 0 + 1 * q.val = q.val; omega
  | ⟨1, _⟩ => show 384 + 1 * l.val = 128 * 3 + l.val; omega

end Cert.KernelIdeal.Hand

end
-- ==== Proof.RunI.lean ====
/-
  The whole program run: the host operations before the call, the call, the reshape after it.

  Between two of these three stretches the core holds every unscoped buffer whole at a known valuation: the launch
  memory `W0`; after the host operations before the call `W1`; after the call `W2`, which is `W1` with the output
  column at what the ten write-backs leave; after the last reshape `W3`. Beside the buffers ride the generator
  register and the fact that the core owes nothing.

  The call's ten windows stand on SEVEN buffers: the four stripes' windows all read the embedding's [10000, 4, 4, 128]
  view. Entering the call, that buffer's points-to is cut into four quarters, one per stripe window (halving
  twice), and every other window's buffer is handed over whole; leaving it, the four quarters (the array unchanged:
  no input is ever written back) are glued again. These two steps are `arrays_of_arrBufs` and `arrBufs_of_arrays`.
-/
import proofs.«153232_g87316685128367_cont_sun_m_226_15_alg».proof.Proof.BodyI
import Idealize.ShloMosaic.Lib.Pipeline.Frame
import Idealize.ShloMosaic.Lib.Pipeline.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The seven buffers behind the ten windows -/

/-- The buffers behind the windows' arrays: the stripes' view once, then one per remaining window. -/
abbrev arrList : List (Ref sig .tc) := [main_v2, main_v5, main_v10, main_v11, main_v12, main_v9, main_v13]

theorem arrRefs_eq : Finset.univ.image (Pipeline.arrRef spec0) = arrList.toFinset := by decide

/-- A conjunction over those seven buffers, one by one. -/
theorem bigSep_arr {M : Type} [URA M] (Φ : Ref sig .tc → sProp M) :
    bigSep (Finset.univ.image (Pipeline.arrRef spec0)) Φ
      = iprop(Φ main_v2 ∗ Φ main_v5 ∗ Φ main_v10 ∗ Φ main_v11 ∗ Φ main_v12 ∗ Φ main_v9 ∗ Φ main_v13) :=
  bigSep_eq_bigSepL_of_eq arrList arrRefs_eq (by decide) Φ

section Shares

variable (V : (c : Dev nD) → (b : Ref sig .tc) → Buf (Elt F) ((c : Thread nD τ).loc b)) (c : Dev nD)
  (G : (w : Fin cfg0.W) → Buf (Elt F) ((cfg0.win w).arr.view.loc (c.tc : Thread nD τ)))
  (Vc : (b : Ref sig .tc) → Buf (Elt F) ((c.tc : Thread nD τ).loc b))

/-- ENTERING the call: the seven buffers whole at `Vc` give the ten windows' arrays at `G`, which reads `Vc` at each
    window's buffer: the stripes' buffer is halved twice, a quarter per stripe window. -/
theorem arrays_of_arrBufs (hG : ∀ w, G w = Vc (Pipeline.arrRef spec0 w)) :
    (Pipeline.arrBufs (Ix := Unit) (Name := ℕ) (U := UR sig nD τ) (Lvl := ℕ) spec0 c Vc : sProp 𝕄) ⊢ (dat V c).arrays G := by
  unfold Pipeline.arrBufs Dat.arrays
  rw [bigSep_W0, bigSep_arr]
  simp only [hG]
  rw [(arr_whole0 0).set_eq_univ, (arr_whole0 4).set_eq_univ, (arr_whole0 5).set_eq_univ, (arr_whole0 6).set_eq_univ,
    (arr_whole0 7).set_eq_univ, (arr_whole0 8).set_eq_univ, (arr_whole0 9).set_eq_univ]
  iintro ⟨H2, H5, H10, H11, H12, H9, H13⟩
  ihave H2' := (pointsTo_share (PosShare.mem_left_op_right fullShare)).1 $$ H2
  icases H2' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [Hll]; · iexact Hll
  isplitl [Hlr]; · iexact Hlr
  isplitl [Hrl]; · iexact Hrl
  isplitl [Hrr]; · iexact Hrr
  isplitl [H5]; · iexact H5
  isplitl [H10]; · iexact H10
  isplitl [H11]; · iexact H11
  isplitl [H12]; · iexact H12
  isplitl [H9]; · iexact H9
  iexact H13

/-- LEAVING the call: the ten windows' arrays at `G` give the seven buffers whole at any `Vc` that `G` reads: the four
    quarters of the stripes' buffer glued again. -/
theorem arrBufs_of_arrays (hG : ∀ w, G w = Vc (Pipeline.arrRef spec0 w)) :
    (dat V c).arrays G ⊢ (Pipeline.arrBufs (Ix := Unit) (Name := ℕ) (U := UR sig nD τ) (Lvl := ℕ) spec0 c Vc : sProp 𝕄) := by
  unfold Pipeline.arrBufs Dat.arrays
  rw [bigSep_W0, bigSep_arr]
  simp only [hG]
  rw [(arr_whole0 0).set_eq_univ, (arr_whole0 4).set_eq_univ, (arr_whole0 5).set_eq_univ, (arr_whole0 6).set_eq_univ,
    (arr_whole0 7).set_eq_univ, (arr_whole0 8).set_eq_univ, (arr_whole0 9).set_eq_univ]
  iintro ⟨Hll, Hlr, Hrl, Hrr, H5, H10, H11, H12, H9, H13⟩
  isplitl [Hll Hlr Hrl Hrr]
  · iapply (pointsTo_share (PosShare.mem_left_op_right fullShare)).2
    isplitl [Hll Hlr]
    · iapply (pointsTo_share (PosShare.mem_left_op_right fullShare.left)).2
      isplitl [Hll]; · iexact Hll
      iexact Hlr
    · iapply (pointsTo_share (PosShare.mem_left_op_right fullShare.right)).2
      isplitl [Hrl]; · iexact Hrl
      iexact Hrr
  isplitl [H5]; · iexact H5
  isplitl [H10]; · iexact H10
  isplitl [H11]; · iexact H11
  isplitl [H12]; · iexact H12
  isplitl [H9]; · iexact H9
  iexact H13

end Shares

variable (m : (ℓ : Loc nD τ sig) → Buf (Elt F) ℓ) (ρ : Dev nD → PrngReg)

/-! ## The buffers' contents at the three boundaries -/

/-- At launch. -/
abbrev W0 : Dev nD → Valuation τ sig (Elt F) := fun c b => (s₀ m ρ).mem ((c : Dev nD), b)
/-- After the host operations before the call. -/
abbrev W1 : Dev nD → Valuation τ sig (Elt F) := fun c => StableHlo.after hostOps0 (W0 m ρ c)
/-- The same read at the core's references: what the call's proof data take. -/
abbrev V1 : (c : Dev nD) → (b : Ref sig .tc) → Buf (Elt F) ((c : Thread nD τ).loc b) := fun c b => W1 m ρ c b
/-- The output column after the call's ten write-backs. -/
abbrev column (c : Dev nD) : Buf (Elt F) ((c : Thread nD τ).loc main_v13) := (dat (V1 m ρ) c).arrAt 9 cfg0.N
/-- After the call: the output column at what the write-backs leave, every other buffer as entered. -/
def W2 (c : Dev nD) : Valuation τ sig (Elt F) := Function.update (W1 m ρ c) (Proc.devRef .tc main_v13) (column m ρ c)
theorem W2_col (c : Dev nD) : W2 m ρ c (Proc.devRef .tc main_v13) = column m ρ c := by
  unfold W2; exact Function.update_self _ _ _
theorem W2_of_ne (c : Dev nD) (b : Ref sig .tc) (hb : b ≠ main_v13) : W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b
/-- After the last reshape. -/
abbrev W3 : Dev nD → Valuation τ sig (Elt F) := fun c => StableHlo.after hostOps1 (W2 m ρ c)

/-- Every window's array after the call is what `V2` has at its buffer: an input is never written back, and the
    output's buffer is where `W2` differs from `W1`. -/
theorem arrAt_V2 (c : Dev nD) (w : Fin cfg0.W) : (dat (V1 m ρ) c).arrAt w cfg0.N = V2 m ρ c (Pipeline.arrRef spec0 w) := by
  match w with
  | ⟨0, _⟩ => exact ((dat (V1 m ρ) c).arrAt_in 0 rfl _).trans ((A_eq (V1 m ρ) c 0).trans (W2_of_ne m ρ c _ (by decide)).symm)
  | ⟨1, _⟩ => exact ((dat (V1 m ρ) c).arrAt_in 1 rfl _).trans ((A_eq (V1 m ρ) c 1).trans (W2_of_ne m ρ c _ (by decide)).symm)
  | ⟨2, _⟩ => exact ((dat (V1 m ρ) c).arrAt_in 2 rfl _).trans ((A_eq (V1 m ρ) c 2).trans (W2_of_ne m ρ c _ (by decide)).symm)
  | ⟨3, _⟩ => exact ((dat (V1 m ρ) c).arrAt_in 3 rfl _).trans ((A_eq (V1 m ρ) c 3).trans (W2_of_ne m ρ c _ (by decide)).symm)
  | ⟨4, _⟩ => exact ((dat (V1 m ρ) c).arrAt_in 4 rfl _).trans ((A_eq (V1 m ρ) c 4).trans (W2_of_ne m ρ c _ (by decide)).symm)
  | ⟨5, _⟩ => exact ((dat (V1 m ρ) c).arrAt_in 5 rfl _).trans ((A_eq (V1 m ρ) c 5).trans (W2_of_ne m ρ c _ (by decide)).symm)
  | ⟨6, _⟩ => exact ((dat (V1 m ρ) c).arrAt_in 6 rfl _).trans ((A_eq (V1 m ρ) c 6).trans (W2_of_ne m ρ c _ (by decide)).symm)
  | ⟨7, _⟩ => exact ((dat (V1 m ρ) c).arrAt_in 7 rfl _).trans ((A_eq (V1 m ρ) c 7).trans (W2_of_ne m ρ c _ (by decide)).symm)
  | ⟨8, _⟩ => exact ((dat (V1 m ρ) c).arrAt_in 8 rfl _).trans ((A_eq (V1 m ρ) c 8).trans (W2_of_ne m ρ c _ (by decide)).symm)
  | ⟨9, _⟩ => exact (W2_col m ρ c).symm

/-- Off the windows' buffers nothing changed during the call. -/
theorem V2_rest (c : Dev nD) (b : Ref sig .tc) (hb : b ∉ Finset.univ.image (Pipeline.arrRef spec0)) : V2 m ρ c b = V1 m ρ c b :=
  W2_of_ne m ρ c b fun e => hb (Finset.mem_image.mpr ⟨9, Finset.mem_univ _, e.symm⟩)

/-- No host operation and no write-back touches `main_arg0`: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
/-- No host operation and no write-back touches `main_arg1`: it ends as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl
/-- No host operation and no write-back touches `main_arg2`: it ends as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl
/-- No host operation and no write-back touches `main_arg3`: it ends as launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl
/-- No host operation and no write-back touches `main_arg4`: it ends as launched. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl
/-- No host operation and no write-back touches `main_arg5`: it ends as launched. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg5) := rfl
/-- No host operation and no write-back touches `main_arg6`: it ends as launched. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.Forall, StableHlo.reshape_writes, Finset.mem_singleton]
          exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg6) := rfl

/-- The result: the last reshape of the output column. -/
theorem W3_result (c : Dev nD) :
    W3 m ρ c (Proc.devRef .tc main_v14) = shapeCast S10000 (column m ρ c) shapeCasts_S10000x1_S10000 := by
  show StableHlo.after hostOps1 (W2 m ρ c) (Proc.devRef .tc main_v14) = _
  after_results
  rw [W2_col]
  rfl

/-! ## The thread state and the segments -/

abbrev adm : (p : Fin 1) → (pcfgs (F := F) p).Adm := fun p => (cfgs p).toPCfg_adm
/-- The one pipeline's proof data, at the call's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE CALL as a segment: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_of_arrBufs (V1 m ρ) c _ (V1 m ρ c) fun w => A_eq (V1 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) := by
      rw [Pipeline.unscopedBufs_split₀ cfgs 0 winFacts₀0.arr_unscoped c (V2 m ρ c)]
      refine sep_mono (arrBufs_of_arrays (V1 m ρ) c _ (V2 m ρ c) fun w => arrAt_V2 m ρ c w) (Entails.of_eq ?_)
      unfold Pipeline.unscopedRest
      exact bigSep_congr fun b hb => by rw [V2_rest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's three stretches in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

/-- The last thread state: every unscoped buffer at `W3`, the generator register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE RUN. From any memory with zero counters every weakly fair execution of the program terminates without a
    fault; at the end the result buffer holds the reshape of the output column the ten write-backs leave, and every
    argument array holds what it held at launch. -/
theorem run : θ_run defs (onTc (τ := τ) (main (F := F))) ⟨m, fun _ => 0, ρ⟩ (fun r => ∀ c : Dev nD,
      r.2.mem ((c.tc : Thread nD τ).loc main_v14) = shapeCast S10000 (column m ρ c) shapeCasts_S10000x1_S10000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => ⟨(h c _ (mem_uc main_v14 (by decide))).trans (W3_result m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩)

end Cert.KernelIdeal.Hand

end
-- ==== Proof.KernelValueA.lean ====
/-
  The kernel body's stored value, read at row p, as the fused grouping `Cert.Spec.kform` of what the body loaded.

  The body holds node p's residue-3 row in four pieces of 128 channels (channel k is piece k / 128, lane k % 128),
  multiplies the joined row into the 512 × 1024 first layer, adds that layer's bias row, applies h ↦ h · σ(h), multiplies
  by the head's weight row and sums the 1024 columns. Beside it, four stripes of the node's [4,128] block (residue by
  lane) are each multiplied by a [4,128] weight block, added left to right, summed over the lanes and then over the
  residues. The two numbers and one scalar are added. Every step is read at an index: layout steps (views with unit
  axes dropped or added, a row laid over all rows, pieces joined along an axis) read one entry of their operand, a sum
  along an axis is a finite sum over that axis's coordinate, and the matrix product into a zero accumulator is the sum
  over the contracted channel.
-/
import proofs.«153232_g87316685128367_cont_sun_m_226_15_alg».proof.Proof.Spec
import proofs.«153232_g87316685128367_cont_sun_m_226_15_alg».proof.Proof.Gen.KernelIdeal.Skeleton
import proofs.«153232_g87316685128367_cont_sun_m_226_15_alg».proof.Proof.Gen.KernelIdeal.Launch
import proofs.«153232_g87316685128367_cont_sun_m_226_15_alg».proof.Proof.Gen.ReferenceIdeal.Read
import Idealize.ShloMosaic.Lib.ValueIdx
import Idealize.ShloMosaic.Lib.StableHlo.Run

noncomputable section
open Idealize.ShloMosaic Idealize.ShloMosaic.TcCoe Idealize.SL.Sem

namespace Cert.KernelValue
open Cert.KernelIdeal Cert.KernelIdeal.Gen
open Idealize.ShloMosaic.ValueIdx (ix1 ix2 ix3 ix4)

/-! ## Layout steps read at an index -/

/-- A [1000,1,1,128] block viewed [1000,128]: entry (p, l) is the block's entry (p, 0, 0, l). -/
theorem cast_row128 (x : Vec Ideal S1000x1x1x128 .f32) (p : Fin 1000) (l : Fin 128) :
    shapeCast S1000x128 x shapeCasts_S1000x1x1x128_S1000x128 (ix2 p l) = x (ix4 p 0 0 l) :=
  shapeCast_apply x _ _ _ (by
    rw [Shape.rowMajor_val_four, Shape.rowMajor_val_two]
    show ((p.val * 1 + 0) * 1 + 0) * 128 + l.val = p.val * 128 + l.val
    omega)

/-- A [1000,1,4,128] block viewed [1000,4,128]: entry (p, r, l) is the block's entry (p, 0, r, l). -/
theorem cast_stripe (x : Vec Ideal S1000x1x4x128 .f32) (p : Fin 1000) (r : Fin 4) (l : Fin 128) :
    shapeCast S1000x4x128 x shapeCasts_S1000x1x4x128_S1000x4x128 (ix3 p r l) = x (ix4 p 0 r l) :=
  shapeCast_apply x _ _ _ (by
    rw [Shape.rowMajor_val_four, Shape.rowMajor_val_three]
    show ((p.val * 1 + 0) * 4 + r.val) * 128 + l.val = (p.val * 4 + r.val) * 128 + l.val
    omega)

/-- A 1000-vector viewed as a [1000,1] column: entry (p, 0) is the vector's entry p. -/
theorem cast_col (x : FVec Ideal S1000 .f32) (p : Fin 1000) :
    shapeCast S1000x1 x shapeCasts_S1000_S1000x1 (ix2 p 0) = x (ix1 p) :=
  shapeCast_apply x _ _ _ (by
    rw [Shape.rowMajor_val_one, Shape.rowMajor_val_two]
    show p.val = p.val * 1 + 0
    omega)

/-- A [4,128] block given a leading unit axis: entry (u, r, l) is the block's entry (r, l). -/
theorem cast_block (x : FVec Ideal S4x128 .f32) (u : Fin 1) (r : Fin 4) (l : Fin 128) :
    shapeCast S1x4x128 x shapeCasts_S4x128_S1x4x128 (ix3 u r l) = x (ix2 r l) :=
  shapeCast_apply x _ _ _ (by
    have hu : u.val = 0 := by omega
    rw [Shape.rowMajor_val_three, Shape.rowMajor_val_two]
    show r.val * 128 + l.val = (u.val * 4 + r.val) * 128 + l.val
    omega)

/-- One [1,4,128] block laid over 1000 rows: entry (p, r, l) is the block's entry (0, r, l). -/
theorem bcast_block (y : FVec Ideal S1x4x128 .f32) (p : Fin 1000) (r : Fin 4) (l : Fin 128) :
    broadcastTo S1000x4x128 y broadcasts_S1x4x128_S1000x4x128 (ix3 p r l) = y (ix3 0 r l) :=
  broadcastTo_apply y _ _ _ fun a => by
    match a with
    | ⟨0, _⟩ => rfl
    | ⟨1, _⟩ => rfl
    | ⟨2, _⟩ => rfl

/-- One row of 1024 laid over 1000 rows: entry (p, j) is the row's entry j. -/
theorem bcast_row (v : FVec Ideal S1x1024 .f32) (p : Fin 1000) (j : Fin 1024) :
    broadcastTo S1000x1024 v broadcasts_S1x1024_S1000x1024 (ix2 p j) = v (ix2 0 j) :=
  broadcastTo_apply v _ _ _ fun a => by
    match a with
    | ⟨0, _⟩ => rfl
    | ⟨1, _⟩ => rfl

/-- One scalar laid down a column of 1000. -/
theorem bcast_scalar (v : FVec Ideal S1x1 .f32) (p : Fin 1000) :
    broadcastTo S1000x1 v broadcasts_S1x1_S1000x1 (ix2 p 0) = v (ix2 0 0) :=
  broadcastTo_apply v _ _ _ fun a => by
    match a with
    | ⟨0, _⟩ => rfl
    | ⟨1, _⟩ => rfl

/-- Four [1000,128] pieces joined along axis 1, read at (p, k): piece k / 128 at lane k % 128. -/
theorem concat_at (a b c d : FVec Ideal S1000x128 .f32) (p : Fin 1000) (k : Fin 512) :
    concatenate S1000x512 1 [⟨S1000x128, a⟩, ⟨S1000x128, b⟩, ⟨S1000x128, c⟩, ⟨S1000x128, d⟩]
        concatenates_S1000x128_S1000x128_S1000x128_S1000x128_S1000x512_d1 (ix2 p k)
      = Cert.Spec.pick4 a b c d ⟨k.val / 128, by have := k.isLt; omega⟩ (ix2 p ⟨k.val % 128, Nat.mod_lt _ (by decide)⟩) :=
  concatenate_ofFn_apply (t := S1000x512) (s₁ := S1000x128) 1 (Cert.Spec.pick4 a b c d)
    concatenates_S1000x128_S1000x128_S1000x128_S1000x128_S1000x512_d1 rfl 128 rfl (ix2 p k)
    ⟨k.val / 128, by have := k.isLt; omega⟩ rfl (ix2 p ⟨k.val % 128, Nat.mod_lt _ (by decide)⟩) rfl
    (fun e he => by
      match e with
      | ⟨0, _⟩ => rfl
      | ⟨1, _⟩ => exact absurd rfl he)

/-- The four joined pieces are views of four loaded blocks: piece t at (p, l) is block t at (p, 0, 0, l). -/
theorem pick_row128 (v0 v2 v4 v6 : Vec Ideal S1000x1x1x128 .f32) (t : Fin 4) (p : Fin 1000) (l : Fin 128) :
    Cert.Spec.pick4 (shapeCast S1000x128 v0 shapeCasts_S1000x1x1x128_S1000x128)
        (shapeCast S1000x128 v2 shapeCasts_S1000x1x1x128_S1000x128)
        (shapeCast S1000x128 v4 shapeCasts_S1000x1x1x128_S1000x128)
        (shapeCast S1000x128 v6 shapeCasts_S1000x1x1x128_S1000x128) t (ix2 p l)
      = Cert.Spec.pick4 v0 v2 v4 v6 t (ix4 p 0 0 l) := by
  match t with
  | ⟨0, _⟩ => exact cast_row128 v0 p l
  | ⟨1, _⟩ => exact cast_row128 v2 p l
  | ⟨2, _⟩ => exact cast_row128 v4 p l
  | ⟨3, _⟩ => exact cast_row128 v6 p l

/-! ## Sums along one axis -/

/-- The sum over axis 1 of a [1000,1024] vector, read at row p. -/
theorem sum_cols (x : FVec Ideal S1000x1024 .f32) (p : Fin 1000) :
    multiReduction (F := Ideal) .add [1] S1000 x 0x00000000#32 reduces_S1000x1024_S1000 (.inl rfl) rfl (ix1 p)
      = ∑ j : Fin 1024, x (ix2 p j) := by
  refine (Ideal.multiReduction_add_single x 0x00000000#32 reduces_S1000x1024_S1000 (.inl rfl) rfl (ix1 p)).trans ?_
  refine Finset.sum_congr rfl fun j _ => congrArg x (funext fun a => ?_)
  match a with
  | ⟨0, _⟩ => rfl
  | ⟨1, _⟩ => rfl

/-- The sum over the lanes of a [1000,4,128] vector, read at (p, r). -/
theorem sum_lanes (x : FVec Ideal S1000x4x128 .f32) (p : Fin 1000) (r : Fin 4) :
    multiReduction (F := Ideal) .add [2] S1000x4 x 0x00000000#32 reduces_S1000x4x128_S1000x4 (.inl rfl) rfl (ix2 p r)
      = ∑ l : Fin 128, x (ix3 p r l) := by
  refine (Ideal.multiReduction_add_single x 0x00000000#32 reduces_S1000x4x128_S1000x4 (.inl rfl) rfl (ix2 p r)).trans ?_
  refine Finset.sum_congr rfl fun l _ => congrArg x (funext fun a => ?_)
  match a with
  | ⟨0, _⟩ => rfl
  | ⟨1, _⟩ => rfl
  | ⟨2, _⟩ => rfl

/-- The sum over axis 1 of a [1000,4] vector, read at row p. -/
theorem sum_four (x : FVec Ideal S1000x4 .f32) (p : Fin 1000) :
    multiReduction (F := Ideal) .add [1] S1000 x 0x00000000#32 reduces_S1000x4_S1000 (.inl rfl) rfl (ix1 p)
      = ∑ r : Fin 4, x (ix2 p r) := by
  refine (Ideal.multiReduction_add_single x 0x00000000#32 reduces_S1000x4_S1000 (.inl rfl) rfl (ix1 p)).trans ?_
  refine Finset.sum_congr rfl fun r _ => congrArg x (funext fun a => ?_)
  match a with
  | ⟨0, _⟩ => rfl
  | ⟨1, _⟩ => rfl

/-! ## The matrix product read at an index -/

/-- The left operand's index at output (i, ·) and contraction index q: row i … -/
theorem lhs_row (i : S1000x1024.Idx) (q : dot_S1000x512_S512x1024_S1000x1024_1_0_0_1_n_n.contr.Idx) :
    (dot_S1000x512_S512x1024_S1000x1024_1_0_0_1_n_n.lhsIdx i q 0).val = (i 0).val := by
  unfold DotDims.lhsIdx
  rw [dif_neg (show ¬(0 : Fin S1000x512.rank) ∈ dot_S1000x512_S512x1024_S1000x1024_1_0_0_1_n_n.lhsBatch by decide), dif_pos (show (0 : Fin S1000x512.rank) ∈ dot_S1000x512_S512x1024_S1000x1024_1_0_0_1_n_n.lhsNonContracting by decide)]
  rfl
/-- … column q. -/
theorem lhs_col (i : S1000x1024.Idx) (q : dot_S1000x512_S512x1024_S1000x1024_1_0_0_1_n_n.contr.Idx) :
    (dot_S1000x512_S512x1024_S1000x1024_1_0_0_1_n_n.lhsIdx i q 1).val = (q ⟨0, by decide⟩).val :=
  dot_S1000x512_S512x1024_S1000x1024_1_0_0_1_n_n.lhsIdx_val_of_single rfl i q
/-- The right operand's index: row q … -/
theorem rhs_row (i : S1000x1024.Idx) (q : dot_S1000x512_S512x1024_S1000x1024_1_0_0_1_n_n.contr.Idx) :
    (dot_S1000x512_S512x1024_S1000x1024_1_0_0_1_n_n.rhsIdx i q 0).val = (q ⟨0, by decide⟩).val :=
  dot_S1000x512_S512x1024_S1000x1024_1_0_0_1_n_n.rhsIdx_val_of_single rfl i q
/-- … column (·, i). -/
theorem rhs_col (i : S1000x1024.Idx) (q : dot_S1000x512_S512x1024_S1000x1024_1_0_0_1_n_n.contr.Idx) :
    (dot_S1000x512_S512x1024_S1000x1024_1_0_0_1_n_n.rhsIdx i q 1).val = (i 1).val := by
  unfold DotDims.rhsIdx
  rw [dif_neg (show ¬(1 : Fin S512x1024.rank) ∈ dot_S1000x512_S512x1024_S1000x1024_1_0_0_1_n_n.rhsBatch by decide), dif_pos (show (1 : Fin S512x1024.rank) ∈ dot_S1000x512_S512x1024_S1000x1024_1_0_0_1_n_n.rhsNonContracting by decide)]
  rfl

/-- The matrix product into a zero accumulator, at (p, j): the sum over the 512 channels. -/
theorem matmul_at (x : FVec Ideal S1000x512 .bf16) (w : FVec Ideal S512x1024 .bf16) (p : Fin 1000) (j : Fin 1024) :
    matmul (F := Ideal) dot_S1000x512_S512x1024_S1000x1024_1_0_0_1_n_n none x w (constant (F := Ideal) S1000x1024 .f32 0x00000000#32) (ix2 p j)
      = ∑ k : Fin 512, x (ix2 p k) * w (ix2 k j) := by
  refine (Ideal.matmul_constant_zero_apply dot_S1000x512_S512x1024_S1000x1024_1_0_0_1_n_n none x w (ix2 p j)).trans ?_
  rw [← Equiv.sum_comp (ValueIdx.contrEquiv1 dot_S1000x512_S512x1024_S1000x1024_1_0_0_1_n_n 512 rfl rfl).symm]
  refine Finset.sum_congr rfl fun k _ => ?_
  have hk := ValueIdx.contrEquiv1_symm_val dot_S1000x512_S512x1024_S1000x1024_1_0_0_1_n_n 512 rfl rfl k
  have el : dot_S1000x512_S512x1024_S1000x1024_1_0_0_1_n_n.lhsIdx (ix2 p j) ((ValueIdx.contrEquiv1 dot_S1000x512_S512x1024_S1000x1024_1_0_0_1_n_n 512 rfl rfl).symm k) = ix2 p k := funext fun a => Fin.ext (by
    match a with
    | ⟨0, _⟩ => exact lhs_row _ _
    | ⟨1, _⟩ => exact (lhs_col _ _).trans hk)
  have er : dot_S1000x512_S512x1024_S1000x1024_1_0_0_1_n_n.rhsIdx (ix2 p j) ((ValueIdx.contrEquiv1 dot_S1000x512_S512x1024_S1000x1024_1_0_0_1_n_n 512 rfl rfl).symm k) = ix2 k j := funext fun a => Fin.ext (by
    match a with
    | ⟨0, _⟩ => exact (rhs_row _ _).trans hk
    | ⟨1, _⟩ => exact rhs_col _ _)
  rw [el, er]

end Cert.KernelValue
-- ==== Proof.KernelValue.lean ====
/-
  The kernel body's stored value at row p is `Cert.Spec.kform` of what the body loaded: the hidden layer at (p, j), the
  1024-wide head at p, the four stripes' lane-by-lane and residue-by-residue sum at p, and their sum with the scalar.
-/
import proofs.«153232_g87316685128367_cont_sun_m_226_15_alg».proof.Proof.Spec
import proofs.«153232_g87316685128367_cont_sun_m_226_15_alg».proof.Proof.Gen.KernelIdeal.Skeleton
import proofs.«153232_g87316685128367_cont_sun_m_226_15_alg».proof.Proof.Gen.KernelIdeal.Launch
import proofs.«153232_g87316685128367_cont_sun_m_226_15_alg».proof.Proof.Gen.ReferenceIdeal.Read
import proofs.«153232_g87316685128367_cont_sun_m_226_15_alg».proof.Proof.KernelValueA
import Idealize.ShloMosaic.Lib.ValueIdx
import Idealize.ShloMosaic.Lib.StableHlo.Run

noncomputable section
open Idealize.ShloMosaic Idealize.ShloMosaic.TcCoe Idealize.SL.Sem

namespace Cert.KernelValue
open Cert.KernelIdeal Cert.KernelIdeal.Gen
open Idealize.ShloMosaic.ValueIdx (ix1 ix2 ix3 ix4)

/-- The hidden layer before its non-linearity, as the body computes it: the four pieces joined into one [1000,512]
    row block, times the first layer into a zero accumulator, plus the bias row laid over every row. -/
def hidV (v0 v2 v4 v6 : Vec Ideal S1000x1x1x128 .f32) (v10 : Vec Ideal S512x1024 .bf16) (v13 : Vec Ideal S1x1024 .f32) :
    FVec Ideal S1000x1024 .f32 :=
  addf
    (matmul (F := Ideal) (φ₁ := .bf16) (φ₂ := .bf16) dot_S1000x512_S512x1024_S1000x1024_1_0_0_1_n_n none
      (truncf .bf16
        (concatenate S1000x512 1
          [⟨S1000x128, shapeCast S1000x128 v0 shapeCasts_S1000x1x1x128_S1000x128⟩,
           ⟨S1000x128, shapeCast S1000x128 v2 shapeCasts_S1000x1x1x128_S1000x128⟩,
           ⟨S1000x128, shapeCast S1000x128 v4 shapeCasts_S1000x1x1x128_S1000x128⟩,
           ⟨S1000x128, shapeCast S1000x128 v6 shapeCasts_S1000x1x1x128_S1000x128⟩]
          concatenates_S1000x128_S1000x128_S1000x128_S1000x128_S1000x512_d1)
        bitsLt_bf16_f32)
      (shapeCast S512x1024 v10 shapeCasts_S512x1024_S512x1024)
      (constant (F := Ideal) S1000x1024 .f32 0x00000000#32))
    (broadcastTo S1000x1024 (shapeCast S1x1024 v13 shapeCasts_S1x1024_S1x1024) broadcasts_S1x1024_S1000x1024)

/-- The hidden layer at (p, j): the node's residue-3 row against column j of the first layer, plus that column's bias. -/
theorem hidV_at (v0 v2 v4 v6 : Vec Ideal S1000x1x1x128 .f32) (v10 : Vec Ideal S512x1024 .bf16) (v13 : Vec Ideal S1x1024 .f32)
    (p : Fin 1000) (j : Fin 1024) :
    hidV v0 v2 v4 v6 v10 v13 (ix2 p j)
      = (0 + ∑ k : Fin 512, Cert.Spec.pick4 v0 v2 v4 v6 ⟨k.val / 128, by have := k.isLt; omega⟩
            (ix4 p 0 0 ⟨k.val % 128, Nat.mod_lt _ (by decide)⟩) * v10 (ix2 k j))
        + v13 (ix2 0 j) := by
  unfold hidV
  refine (ValueIdx.addf_apply _ _ _).trans ?_
  refine congrArg₂ (fun a b : EReal => a + b) ?_ ?_
  · refine (matmul_at _ _ p j).trans ?_
    refine (zero_add _).symm.trans (congrArg (fun s : EReal => 0 + s) (Finset.sum_congr rfl fun k _ => ?_))
    refine congrArg₂ (fun a b : EReal => a * b) ?_ ?_
    · refine (ValueIdx.truncf_apply (φ := .f32) (ψ := .bf16) _ bitsLt_bf16_f32 (ix2 p k)).trans ?_
      refine (concat_at _ _ _ _ p k).trans ?_
      exact pick_row128 v0 v2 v4 v6 _ p _
    · exact congrFun (shapeCast_self v10 shapeCasts_S512x1024_S512x1024) (ix2 k j)
  · refine (bcast_row _ p j).trans ?_
    exact congrFun (shapeCast_self v13 shapeCasts_S1x1024_S1x1024) (ix2 0 j)

/-- The 1024-wide head over any hidden layer h, read at row p: h · σ(h) against the head's weight row, summed over the
    columns. -/
theorem head_at (h : FVec Ideal S1000x1024 .f32) (v19 : Vec Ideal S1x1024 .f32) (p : Fin 1000) :
    shapeCast S1000x1
        (multiReduction (F := Ideal) .add [1] S1000
          (mulf (mulf h (logistic h))
            (broadcastTo S1000x1024 (shapeCast S1x1024 v19 shapeCasts_S1x1024_S1x1024) broadcasts_S1x1024_S1000x1024))
          0x00000000#32 reduces_S1000x1024_S1000 (.inl rfl) rfl)
        shapeCasts_S1000_S1000x1 (ix2 p 0)
      = 0 + ∑ j : Fin 1024, (h (ix2 p j) * Ideal.logistic (h (ix2 p j))) * v19 (ix2 0 j) := by
  refine (cast_col _ p).trans ?_
  refine (sum_cols _ p).trans ?_
  refine (zero_add _).symm.trans (congrArg (fun s : EReal => 0 + s) (Finset.sum_congr rfl fun j _ => ?_))
  refine (ValueIdx.mulf_apply _ _ _).trans ?_
  refine congrArg₂ (fun a b : EReal => a * b) rfl ?_
  refine (bcast_row _ p j).trans ?_
  exact congrFun (shapeCast_self v19 shapeCasts_S1x1024_S1x1024) (ix2 0 j)

/-- The first payload at row p: the 1024-wide head over the hidden layer. -/
theorem pay1_at (v0 v2 v4 v6 : Vec Ideal S1000x1x1x128 .f32) (v10 : Vec Ideal S512x1024 .bf16) (v13 v19 : Vec Ideal S1x1024 .f32)
    (p : Fin 1000) :
    k0_pay1 (F := Ideal) v0 v2 v4 v6 v10 v13 v19 (ix2 p 0)
      = 0 + ∑ j : Fin 1024, (hidV v0 v2 v4 v6 v10 v13 (ix2 p j) * Ideal.logistic (hidV v0 v2 v4 v6 v10 v13 (ix2 p j)))
          * v19 (ix2 0 j) :=
  head_at (hidV v0 v2 v4 v6 v10 v13) v19 p

/-- One stripe's product at (p, r, l): the node's block entry (p, 0, r, l) times the weight block's entry (r, l). -/
theorem stripe_at (x : FVec Ideal S1000x4x128 .f32) (w : FVec Ideal S4x128 .f32) (p : Fin 1000) (r : Fin 4) (l : Fin 128) :
    mulf x (broadcastTo S1000x4x128 (shapeCast S1x4x128 w shapeCasts_S4x128_S1x4x128) broadcasts_S1x4x128_S1000x4x128) (ix3 p r l)
      = x (ix3 p r l) * w (ix2 r l) := by
  refine (ValueIdx.mulf_apply _ _ _).trans ?_
  refine congrArg (fun b : EReal => x (ix3 p r l) * b) ?_
  exact (bcast_block _ p r l).trans (cast_block w 0 r l)

/-- The last payload over ANY first payload h24, first stripe x0 (already viewed [1000,4,128]) and first weight block
    w0, read at row p: h24 at p, plus the four stripes' products added left to right and summed over the lanes and
    then the residues, plus the scalar. -/
theorem pay4_at (h24 : FVec Ideal S1000x1 .f32) (x0 : FVec Ideal S1000x4x128 .f32) (w0 : FVec Ideal S4x128 .f32)
    (v32 : Vec Ideal S1000x1x4x128 .f32) (v34 : Vec Ideal S4x128 .f32) (v40 : Vec Ideal S1000x1x4x128 .f32)
    (v42 : Vec Ideal S4x128 .f32) (v48 : Vec Ideal S1000x1x4x128 .f32) (v50 : Vec Ideal S4x128 .f32)
    (v60 : Vec Ideal S1x1 .f32) (p : Fin 1000) :
    k0_pay4 (F := Ideal) h24 x0 w0 v32 v34 v40 v42 v48 v50 v60 (ix2 p 0)
      = (h24 (ix2 p 0)
          + (0 + ∑ r : Fin 4, (0 + ∑ l : Fin 128,
              (((x0 (ix3 p r l) * w0 (ix2 r l) + v32 (ix4 p 0 r l) * v34 (ix2 r l)) + v40 (ix4 p 0 r l) * v42 (ix2 r l))
                + v48 (ix4 p 0 r l) * v50 (ix2 r l)))))
        + v60 (ix2 0 0) := by
  unfold k0_pay4
  refine (ValueIdx.addf_apply _ _ _).trans ?_
  refine congrArg₂ (fun a b : EReal => a + b) ?_ ?_
  · refine (ValueIdx.addf_apply _ _ _).trans ?_
    refine congrArg (fun b : EReal => h24 (ix2 p 0) + b) ?_
    refine (cast_col _ p).trans ?_
    refine (sum_four _ p).trans ?_
    refine (zero_add _).symm.trans (congrArg (fun s : EReal => 0 + s) (Finset.sum_congr rfl fun r _ => ?_))
    refine (sum_lanes _ p r).trans ?_
    refine (zero_add _).symm.trans (congrArg (fun s : EReal => 0 + s) (Finset.sum_congr rfl fun l _ => ?_))
    refine (ValueIdx.addf_apply _ _ _).trans ?_
    refine congrArg₂ (fun a b : EReal => a + b) ?_ ?_
    · refine (ValueIdx.addf_apply _ _ _).trans ?_
      refine congrArg₂ (fun a b : EReal => a + b) ?_ ?_
      · refine (ValueIdx.addf_apply _ _ _).trans ?_
        refine congrArg₂ (fun a b : EReal => a + b) ?_ ?_
        · exact stripe_at x0 w0 p r l
        · refine (stripe_at _ _ p r l).trans ?_
          exact congrArg₂ (fun a b : EReal => a * b) (cast_stripe v32 p r l)
            (congrFun (shapeCast_self v34 shapeCasts_S4x128_S4x128) (ix2 r l))
      · refine (stripe_at _ _ p r l).trans ?_
        exact congrArg₂ (fun a b : EReal => a * b) (cast_stripe v40 p r l)
          (congrFun (shapeCast_self v42 shapeCasts_S4x128_S4x128) (ix2 r l))
    · refine (stripe_at _ _ p r l).trans ?_
      exact congrArg₂ (fun a b : EReal => a * b) (cast_stripe v48 p r l)
        (congrFun (shapeCast_self v50 shapeCasts_S4x128_S4x128) (ix2 r l))
  · refine (bcast_scalar _ p).trans ?_
    exact congrFun (shapeCast_self v60 shapeCasts_S1x1_S1x1) (ix2 0 0)

/-- The body's stored value at row p is the fused grouping of what the body loaded. -/
theorem payload_at (v0 v2 v4 v6 : Vec Ideal S1000x1x1x128 .f32) (v10 : Vec Ideal S512x1024 .bf16) (v13 v19 : Vec Ideal S1x1024 .f32)
    (v25 v32 v40 v48 : Vec Ideal S1000x1x4x128 .f32) (v27 v34 v42 v50 : Vec Ideal S4x128 .f32) (v60 : Vec Ideal S1x1 .f32) (p : Fin 1000) :
    k0_pay4 (F := Ideal) (k0_pay1 v0 v2 v4 v6 v10 v13 v19) (k0_pay2 v25) (k0_pay3 v27) v32 v34 v40 v42 v48 v50 v60 (ValueIdx.ix2 p 0)
      = Cert.Spec.kform
          (fun k : Fin 512 => Cert.Spec.pick4 v0 v2 v4 v6 ⟨k.val / 128, by have := k.isLt; omega⟩ (ValueIdx.ix4 p 0 0 ⟨k.val % 128, Nat.mod_lt _ (by decide)⟩))
          (fun t r l => Cert.Spec.pick4 v25 v32 v40 v48 t (ValueIdx.ix4 p 0 r l))
          (fun t r l => Cert.Spec.pick4 v27 v34 v42 v50 t (ValueIdx.ix2 r l))
          (fun k j => v10 (ValueIdx.ix2 k j)) (fun j => v13 (ValueIdx.ix2 0 j)) (fun j => v19 (ValueIdx.ix2 0 j)) (v60 (ValueIdx.ix2 0 0)) := by
  refine (pay4_at _ _ _ v32 v34 v40 v42 v48 v50 v60 p).trans ?_
  unfold Cert.Spec.kform
  refine congrArg (fun s : EReal => s + v60 (ix2 0 0)) ?_
  refine congrArg₂ (fun a b : EReal => a + b) ?_ ?_
  · refine (pay1_at v0 v2 v4 v6 v10 v13 v19 p).trans ?_
    refine congrArg (fun s : EReal => 0 + s) (Finset.sum_congr rfl fun j _ => ?_)
    exact congrArg (fun h : EReal => (h * Ideal.logistic h) * v19 (ix2 0 j)) (hidV_at v0 v2 v4 v6 v10 v13 p j)
  · refine congrArg (fun s : EReal => 0 + s) (Finset.sum_congr rfl fun r _ =>
      congrArg (fun s : EReal => 0 + s) (Finset.sum_congr rfl fun l _ => ?_))
    refine congrArg (fun a : EReal => ((a + v32 (ix4 p 0 r l) * v34 (ix2 r l)) + v40 (ix4 p 0 r l) * v42 (ix2 r l))
      + v48 (ix4 p 0 r l) * v50 (ix2 r l)) ?_
    exact congrArg₂ (fun a b : EReal => a * b) (cast_stripe v25 p r l)
      (congrFun (shapeCast_self v27 shapeCasts_S4x128_S4x128) (ix2 r l))

end Cert.KernelValue
-- ==== Proof.HostValue.lean ====
/-
  The kernel program's host operations before the call, read at an index.

  Before the region is entered the program lays its arguments out for the fused body. The embedding x[n, k, 0, r]
  has its unit axis dropped, its channel axis cut into four stripes of 128 lanes (k = 128·t + l) and its last two axes
  swapped: entry (n, t, r, l) of the result is x[n, 128·t + l, 0, r]. The three linear heads' weights, their unit axis
  dropped, get a zero row appended: a 4 × 512 block whose row r is head r's weights for r < 3 and zero for r = 3. The
  biases are added up front: zero plus the sum of the [3,1] array over both axes, plus the last head's bias, as a
  [1,1] array. The first layer's weights pass through a change of format, which is the identity on the ideal values;
  the first layer's bias and the last head's weights are each re-laid as one row of 1024.

  Each reshape keeps row-major positions, so reading it at an index is one linear equation between two positions; the
  transpose and the concatenation name their source index by coordinates; the sum over the whole [3,1] array is
  re-indexed over its first coordinate alone, the second being the unit axis.
-/
import proofs.«153232_g87316685128367_cont_sun_m_226_15_alg».proof.Proof.Spec
import proofs.«153232_g87316685128367_cont_sun_m_226_15_alg».proof.Proof.Gen.KernelIdeal.Skeleton
import proofs.«153232_g87316685128367_cont_sun_m_226_15_alg».proof.Proof.Gen.KernelIdeal.Launch
import proofs.«153232_g87316685128367_cont_sun_m_226_15_alg».proof.Proof.Gen.ReferenceIdeal.Read
import Idealize.ShloMosaic.Lib.ValueIdx
import Idealize.ShloMosaic.Lib.StableHlo.Run
import Idealize.ShloMosaic.Lib.IdealHost
import Idealize.ShloMosaic.Lib.Pipeline.Value

noncomputable section
open Idealize.ShloMosaic Idealize.ShloMosaic.TcCoe Idealize.SL.Sem

namespace Cert.HostValue
open Cert.KernelIdeal Cert.KernelIdeal.Gen
variable (m : (ℓ : Loc nD τ sig) → Buf (Elt Ideal) ℓ) (c : Dev nD)
/-- Core `c`'s buffers when the region is entered: the launch memory after the host stretch before the call. -/
abbrev V1 : Valuation τ sig (Elt Ideal) := StableHlo.after (hostOps0 (F := Ideal)) (fun b => m (c, b))

open Idealize.ShloMosaic.ValueIdx

/-! ## The host operations read at an index, over any arrays -/

/-- The position of the rank-0 shape's one index is zero. -/
theorem rowMajor_scalar (k : S_.Idx) : (S_.rowMajor k).val = 0 := by
  have h := (S_.rowMajor k).isLt
  have e : S_.numel = 1 := rfl
  omega

/-- Channel 128·t + l of node n, residue r: the stripes are cut from the channel axis, then lanes and residues swapped.
    [10000,512,1,4] → [10000,512,4] → [10000,4,128,4] keeps row-major positions; the transpose swaps the last two axes. -/
theorem stripes_at (x0 : S10000x512x1x4.Idx → EReal)
    (h1 : S10000x512x1x4.ShapeCasts S10000x512x4) (h2 : S10000x512x4.ShapeCasts S10000x4x128x4)
    (h3 : S10000x4x128x4.Transposes [0, 1, 3, 2] S10000x4x4x128)
    (n : Fin 10000) (t r : Fin 4) (l : Fin 128) :
    transpose S10000x4x4x128 [0, 1, 3, 2] (shapeCast S10000x4x128x4 (shapeCast S10000x512x4 x0 h1) h2) h3 (ix4 n t r l)
      = x0 (ix4 n (Cert.Spec.chan t l) 0 r) := by
  refine (transpose_apply _ _ h3 (ix4 n t r l) (ix4 n t l r) (fun b => match b with
    | ⟨0, _⟩ => rfl | ⟨1, _⟩ => rfl | ⟨2, _⟩ => rfl | ⟨3, _⟩ => rfl)).trans ?_
  refine (shapeCast_apply _ h2 (ix4 n t l r) (ix3 n (Cert.Spec.chan t l) r) ?_).trans ?_
  · rw [Shape.rowMajor_val_three, Shape.rowMajor_val_four]
    show (n.val * 512 + (128 * t.val + l.val)) * 4 + r.val = ((n.val * 4 + t.val) * 128 + l.val) * 4 + r.val
    omega
  · refine shapeCast_apply x0 h1 (ix3 n (Cert.Spec.chan t l) r) (ix4 n (Cert.Spec.chan t l) 0 r) ?_
    rw [Shape.rowMajor_val_four, Shape.rowMajor_val_three]
    show ((n.val * 512 + (128 * t.val + l.val)) * 1 + 0) * 4 + r.val = (n.val * 512 + (128 * t.val + l.val)) * 4 + r.val
    omega

/-- The 4 × 512 weight block: rows 0, 1, 2 are the three heads' weights (their unit axis dropped), row 3 the broadcast zero. -/
theorem block_at (x1 : S3x512x1.Idx → EReal) (h1 : S3x512x1.ShapeCasts S3x512)
    (hb : S_.BroadcastsInDim S1x512 (![] : Fin 0 → Fin S1x512.rank))
    (hc : Shape.Concatenates [S3x512, S1x512] S4x512 0) (r : Fin 4) (k : Fin 512) :
    concatenate S4x512 0 [⟨S3x512, shapeCast S3x512 x1 h1⟩,
        ⟨S1x512, broadcastInDim S1x512 ![] hb (constant (F := Ideal) S_ .f32 0x00000000#32)⟩] hc (ix2 r k)
      = Cert.Spec.wl (fun i k => x1 (ix3 i k 0)) r k := by
  unfold Cert.Spec.wl
  by_cases hr : r.val < 3
  · rw [dif_pos hr]
    refine (concatenate_pair_apply_left (0 : Fin S4x512.rank) _ _ hc (ix2 r k) rfl (ix2 (⟨r.val, hr⟩ : Fin 3) k)
      (fun b => match b with | ⟨0, _⟩ => rfl | ⟨1, _⟩ => rfl)).trans ?_
    refine shapeCast_apply x1 h1 (ix2 (⟨r.val, hr⟩ : Fin 3) k) (ix3 (⟨r.val, hr⟩ : Fin 3) k 0) ?_
    rw [Shape.rowMajor_val_three, Shape.rowMajor_val_two]
    show (r.val * 512 + k.val) * 1 + 0 = r.val * 512 + k.val
    omega
  · rw [dif_neg hr]
    refine (concatenate_pair_apply_right (0 : Fin S4x512.rank) _ _ hc (ix2 r k) rfl rfl (ix2 (0 : Fin 1) k)
      (fun b => match b with | ⟨0, _⟩ => fun hne => absurd rfl hne | ⟨1, _⟩ => fun _ => rfl) ?_).trans ?_
    · show 0 + 3 = r.val
      have := r.isLt
      omega
    · rw [broadcastInDim_scalar_apply, constant_apply, Ideal.ofBits_zero_f32]

/-- All the biases: zero plus the three linear heads' biases summed over the whole [3,1] array, plus the last head's. -/
theorem bias_at (x2 : S3x1.Idx → EReal) (x6 : S1.Idx → EReal) (hred : S3x1.ReducesTo [0, 1] S_) (hpos : 0 < S_.numel)
    (h6 : S1.ShapeCasts S_) (h9 : S_.ShapeCasts S1x1) :
    shapeCast S1x1 (addf (F := Ideal) (φ := .f32) (Host.reduceAdd (F := Ideal) (φ := .f32) x2 (constant (F := Ideal) S_ .f32 0x00000000#32) hred hpos)
        (shapeCast S_ x6 h6)) h9 (ix2 0 0)
      = Cert.Spec.biasAll (fun a => x2 (ix2 a 0)) (x6 (ix1 0)) := by
  refine (shapeCast_apply _ h9 (ix2 0 0) ix0 ?_).trans ?_
  · rw [rowMajor_scalar, Shape.rowMajor_val_two]; rfl
  rw [addf_apply, hostReduceAdd_apply, Ideal.hostReduceAdd_total hred (fun b => b.elim0), constant_apply,
    Ideal.ofBits_zero_f32, sum_idx2]
  unfold Cert.Spec.biasAll
  congr 1
  · congr 1
    exact Finset.sum_congr rfl fun a _ => Fin.sum_univ_one _
  · refine shapeCast_apply x6 h6 ix0 (ix1 0) ?_
    rw [rowMajor_scalar, Shape.rowMajor_val_one]; rfl

/-- A vector as one row. -/
theorem row_at (x4 : S1024.Idx → EReal) (h : S1024.ShapeCasts S1x1024) (j : Fin 1024) :
    shapeCast S1x1024 x4 h (ix2 0 j) = x4 (ix1 j) := by
  refine shapeCast_apply x4 h (ix2 0 j) (ix1 j) ?_
  rw [Shape.rowMajor_val_one, Shape.rowMajor_val_two]
  show j.val = 0 * 1024 + j.val
  omega

/-- A column as one row. -/
theorem col_at (x5 : S1024x1.Idx → EReal) (h : S1024x1.ShapeCasts S1x1024) (j : Fin 1024) :
    shapeCast S1x1024 x5 h (ix2 0 j) = x5 (ix2 j 0) := by
  refine shapeCast_apply x5 h (ix2 0 j) (ix2 j 0) ?_
  rw [Shape.rowMajor_val_two, Shape.rowMajor_val_two]
  show j.val * 1 + 0 = 0 * 1024 + j.val
  omega

/-! ## The kernel program's arrays when the region is entered -/

theorem v2_at (n : Fin 10000) (t r : Fin 4) (l : Fin 128) :
    (V1 m c (Proc.devRef .tc main_v2) : S10000x4x4x128.Idx → EReal) (ValueIdx.ix4 n t r l)
      = (m ((c.tc : Thread nD τ).loc main_arg0) : S10000x512x1x4.Idx → EReal) (ValueIdx.ix4 n (Cert.Spec.chan t l) 0 r) := by
  have e : (V1 m c (Proc.devRef .tc main_v2) : S10000x4x4x128.Idx → EReal)
      = transpose S10000x4x4x128 [0, 1, 3, 2] (shapeCast S10000x4x128x4 (shapeCast S10000x512x4
          (m ((c.tc : Thread nD τ).loc main_arg0) : S10000x512x1x4.Idx → EReal) shapeCasts_S10000x512x1x4_S10000x512x4)
          shapeCasts_S10000x512x4_S10000x4x128x4) transposes_S10000x4x128x4_S10000x4x4x128_0_1_3_2 := by
    dsimp only [V1, Gen.hostOps0]; after_results; rfl
  exact (congrFun e _).trans (stripes_at _ _ _ _ n t r l)

theorem v5_at (r : Fin 4) (k : Fin 512) :
    (V1 m c (Proc.devRef .tc main_v5) : S4x512.Idx → EReal) (ValueIdx.ix2 r k)
      = Cert.Spec.wl (fun i k => (m ((c.tc : Thread nD τ).loc main_arg1) : S3x512x1.Idx → EReal) (ValueIdx.ix3 i k 0)) r k := by
  have e : (V1 m c (Proc.devRef .tc main_v5) : S4x512.Idx → EReal)
      = concatenate S4x512 0 [⟨S3x512, shapeCast S3x512 (m ((c.tc : Thread nD τ).loc main_arg1) : S3x512x1.Idx → EReal)
            shapeCasts_S3x512x1_S3x512⟩,
          ⟨S1x512, broadcastInDim S1x512 ![] bcast_S_S1x512 (constant (F := Ideal) S_ .f32 0x00000000#32)⟩]
          concatenates_S3x512_S1x512_S4x512_d0 := by
    dsimp only [V1, Gen.hostOps0]; after_results; rfl
  exact (congrFun e _).trans (block_at _ _ _ _ r k)

theorem v9_at :
    (V1 m c (Proc.devRef .tc main_v9) : S1x1.Idx → EReal) (ValueIdx.ix2 0 0)
      = Cert.Spec.biasAll (fun a => (m ((c.tc : Thread nD τ).loc main_arg2) : S3x1.Idx → EReal) (ValueIdx.ix2 a 0))
          ((m ((c.tc : Thread nD τ).loc main_arg6) : S1.Idx → EReal) (ValueIdx.ix1 0)) := by
  have e : (V1 m c (Proc.devRef .tc main_v9) : S1x1.Idx → EReal)
      = shapeCast S1x1 (addf (F := Ideal) (φ := .f32)
          (Host.reduceAdd (F := Ideal) (φ := .f32) (m ((c.tc : Thread nD τ).loc main_arg2) : S3x1.Idx → EReal)
            (constant (F := Ideal) S_ .f32 0x00000000#32) reducesTo_S3x1_S_d0_1 h_S_)
          (shapeCast S_ (m ((c.tc : Thread nD τ).loc main_arg6) : S1.Idx → EReal) shapeCasts_S1_S_)) shapeCasts_S_S1x1 := by
    dsimp only [V1, Gen.hostOps0]; after_results; rfl
  exact (congrFun e _).trans (bias_at _ _ _ _ _ _)

theorem v10_at (k : Fin 512) (j : Fin 1024) :
    (V1 m c (Proc.devRef .tc main_v10) : S512x1024.Idx → EReal) (ValueIdx.ix2 k j)
      = (m ((c.tc : Thread nD τ).loc main_arg3) : S512x1024.Idx → EReal) (ValueIdx.ix2 k j) := by
  have e : (V1 m c (Proc.devRef .tc main_v10) : S512x1024.Idx → EReal)
      = truncf (F := Ideal) (φ := .f32) .bf16 (m ((c.tc : Thread nD τ).loc main_arg3) : S512x1024.Idx → EReal) bitsLt_bf16_f32 := by
    dsimp only [V1, Gen.hostOps0]; after_results
  exact (congrFun e _).trans (truncf_apply _ _ _)

theorem v11_at (j : Fin 1024) :
    (V1 m c (Proc.devRef .tc main_v11) : S1x1024.Idx → EReal) (ValueIdx.ix2 0 j)
      = (m ((c.tc : Thread nD τ).loc main_arg4) : S1024.Idx → EReal) (ValueIdx.ix1 j) := by
  have e : (V1 m c (Proc.devRef .tc main_v11) : S1x1024.Idx → EReal)
      = shapeCast S1x1024 (m ((c.tc : Thread nD τ).loc main_arg4) : S1024.Idx → EReal) shapeCasts_S1024_S1x1024 := by
    dsimp only [V1, Gen.hostOps0]; after_results; rfl
  exact (congrFun e _).trans (row_at _ _ j)

theorem v12_at (j : Fin 1024) :
    (V1 m c (Proc.devRef .tc main_v12) : S1x1024.Idx → EReal) (ValueIdx.ix2 0 j)
      = (m ((c.tc : Thread nD τ).loc main_arg5) : S1024x1.Idx → EReal) (ValueIdx.ix2 j 0) := by
  have e : (V1 m c (Proc.devRef .tc main_v12) : S1x1024.Idx → EReal)
      = shapeCast S1x1024 (m ((c.tc : Thread nD τ).loc main_arg5) : S1024x1.Idx → EReal) shapeCasts_S1024x1_S1x1024 := by
    dsimp only [V1, Gen.hostOps0]; after_results; rfl
  exact (congrFun e _).trans (col_at _ _ j)

end Cert.HostValue
-- ==== Proof.SpecLaw.lean ====
/-
  The fused grouping of a node's result equals the head-by-head grouping, on the extended reals.

  Only three facts are used: + on the extended reals is commutative and associative with neutral element 0,
  x * 0 = 0, and k = 128·t + l is a bijection between (stripe, lane) pairs and the 512 channels.
  No finiteness of any value is needed, and neither subtraction nor distributivity appears.
-/
import proofs.«153232_g87316685128367_cont_sun_m_226_15_alg».proof.Proof.Spec
import Mathlib.Data.Fintype.BigOperators
import Mathlib.Tactic.Abel

noncomputable section

namespace Cert.SpecLaw

open Cert.Spec

/-- (stripe t, lane l) ↦ channel 128·t + l is a bijection onto the 512 channels: the inverse sends k to
    (k / 128, k % 128). -/
def chanEquiv : Fin 4 × Fin 128 ≃ Fin 512 where
  toFun p := chan p.1 p.2
  invFun k := (⟨k.val / 128, by have := k.isLt; omega⟩, ⟨k.val % 128, by omega⟩)
  left_inv p := by
    rcases p with ⟨⟨t, ht⟩, ⟨l, hl⟩⟩
    simp only [chan, Prod.mk.injEq, Fin.mk.injEq]
    constructor <;> omega
  right_inv k := by
    rcases k with ⟨k, hk⟩
    simp only [chan, Fin.mk.injEq]
    omega

/-- Summing a function of the channel lane by lane, the four stripes added left to right inside each lane, is
    summing it over all 512 channels. -/
theorem sum_stripes (f : Fin 512 → EReal) :
    ∑ l : Fin 128, (((f (chan 0 l) + f (chan 1 l)) + f (chan 2 l)) + f (chan 3 l)) = ∑ k : Fin 512, f k := by
  calc ∑ l : Fin 128, (((f (chan 0 l) + f (chan 1 l)) + f (chan 2 l)) + f (chan 3 l))
      = ∑ l : Fin 128, ∑ t : Fin 4, f (chan t l) := by
        refine Finset.sum_congr rfl (fun l _ => ?_)
        rw [Fin.sum_univ_four]
    _ = ∑ t : Fin 4, ∑ l : Fin 128, f (chan t l) := Finset.sum_comm
    _ = ∑ p : Fin 4 × Fin 128, f (chanEquiv p) := (Fintype.sum_prod_type (fun p : Fin 4 × Fin 128 => f (chanEquiv p))).symm
    _ = ∑ k : Fin 512, f k := Equiv.sum_comp chanEquiv f

/-- The fused grouping equals the head-by-head one. -/
theorem kout_eq_out (x : Fin 10000 → Fin 512 → Fin 4 → EReal) (wlin : Fin 3 → Fin 512 → EReal) (blin : Fin 3 → EReal)
    (w1 : Fin 512 → Fin 1024 → EReal) (b1 : Fin 1024 → EReal) (w2 : Fin 1024 → EReal) (b2 : EReal) (n : Fin 10000) :
    Cert.Spec.kout x wlin blin w1 b1 w2 b2 n = Cert.Spec.out x wlin blin w1 b1 w2 b2 n := by
  -- each residue's lane-by-lane sum is the sum over all channels
  have hL : ∀ r : Fin 4,
      (∑ l : Fin 128, (((x n (chan 0 l) r * wl wlin r (chan 0 l) + x n (chan 1 l) r * wl wlin r (chan 1 l))
          + x n (chan 2 l) r * wl wlin r (chan 2 l)) + x n (chan 3 l) r * wl wlin r (chan 3 l)))
        = ∑ k : Fin 512, x n k r * wl wlin r k :=
    fun r => sum_stripes (fun k => x n k r * wl wlin r k)
  -- the rows of the weight block
  have h0 : ∀ k, wl wlin 0 k = wlin 0 k := fun _ => rfl
  have h1 : ∀ k, wl wlin 1 k = wlin 1 k := fun _ => rfl
  have h2 : ∀ k, wl wlin 2 k = wlin 2 k := fun _ => rfl
  have h3 : ∀ k, wl wlin 3 k = 0 := fun _ => rfl
  -- the four heads
  have e0 : head x wlin blin w1 b1 w2 b2 0 n = lin x wlin blin 0 n := rfl
  have e1 : head x wlin blin w1 b1 w2 b2 1 n = lin x wlin blin 1 n := rfl
  have e2 : head x wlin blin w1 b1 w2 b2 2 n = lin x wlin blin 2 n := rfl
  have e3 : head x wlin blin w1 b1 w2 b2 3 n = mlp x w1 b1 w2 b2 n := rfl
  have c0 : (0 : Fin 3).castSucc = (0 : Fin 4) := rfl
  have c1 : (1 : Fin 3).castSucc = (1 : Fin 4) := rfl
  have c2 : (2 : Fin 3).castSucc = (2 : Fin 4) := rfl
  simp only [kout, kform, biasAll, out, hL, Fin.sum_univ_four, Fin.sum_univ_three, h0, h1, h2, h3, e0, e1, e2, e3,
    mul_zero, Finset.sum_const_zero, lin, mlp, silu, hid, c0, c1, c2]
  abel

end Cert.SpecLaw

end
-- ==== Proof.ResultI.lean ====
/-
  The kernel program's result, row by row, is the fused grouping of the specification, hence the head-by-head one.

  Row r of what grid point p stores is the body's stored value of the nine blocks at p. Read at that row it is the
  fused form over what the body loaded; each loaded piece is a block read through a rectangle, each block is a window's
  array at node 1000·p + r, and each array is a host reshaping of an argument: the stripes' view at (n, t, q, l) is the
  embedding at channel 128·t + l, residue q; the weight block is the linear heads' weights over a zero row; the bias cell
  is all four biases added; the first layer's matrix, its bias row and the head's weight row are the arguments themselves.
-/
import proofs.«153232_g87316685128367_cont_sun_m_226_15_alg».proof.Proof.BlocksI
import proofs.«153232_g87316685128367_cont_sun_m_226_15_alg».proof.Proof.RunI
import proofs.«153232_g87316685128367_cont_sun_m_226_15_alg».proof.Proof.KernelValue
import proofs.«153232_g87316685128367_cont_sun_m_226_15_alg».proof.Proof.HostValue
import proofs.«153232_g87316685128367_cont_sun_m_226_15_alg».proof.Proof.SpecLaw
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg) (c : Dev nD)

/-! ## The argument arrays as plain index functions -/

abbrev aX : Fin 10000 → Fin 512 → Fin 4 → EReal := fun n k r => (m ((c.tc : Thread nD τ).loc main_arg0) : S10000x512x1x4.Idx → EReal) (ValueIdx.ix4 n k 0 r)
abbrev aWlin : Fin 3 → Fin 512 → EReal := fun i k => (m ((c.tc : Thread nD τ).loc main_arg1) : S3x512x1.Idx → EReal) (ValueIdx.ix3 i k 0)
abbrev aBlin : Fin 3 → EReal := fun a => (m ((c.tc : Thread nD τ).loc main_arg2) : S3x1.Idx → EReal) (ValueIdx.ix2 a 0)
abbrev aW1 : Fin 512 → Fin 1024 → EReal := fun k j => (m ((c.tc : Thread nD τ).loc main_arg3) : S512x1024.Idx → EReal) (ValueIdx.ix2 k j)
abbrev aB1 : Fin 1024 → EReal := fun j => (m ((c.tc : Thread nD τ).loc main_arg4) : S1024.Idx → EReal) (ValueIdx.ix1 j)
abbrev aW2 : Fin 1024 → EReal := fun j => (m ((c.tc : Thread nD τ).loc main_arg5) : S1024x1.Idx → EReal) (ValueIdx.ix2 j 0)
abbrev aB2 : EReal := (m ((c.tc : Thread nD τ).loc main_arg6) : S1.Idx → EReal) (ValueIdx.ix1 0)

theorem zero4 : (![0, 0, 0, 0] : Fin 4 → Nat) = fun _ => 0 := funext fun a => by fin_cases a <;> rfl

/-- A load through a buffer's whole rectangle reads the buffer. -/
theorem ld_stripe (x : Vec Ideal S1000x1x4x128 .f32) : View.ld x rStripe = x := View.ld_unit_zero zero4 _ x
theorem ld_mat (x : Vec Ideal S512x1024 .bf16) : View.ld x rMat = x := View.ld_unit_zero zero2 _ x
theorem ld_row (x : Vec Ideal S1x1024 .f32) : View.ld x rRow = x := View.ld_unit_zero zero2 _ x
theorem ld_one (x : Vec Ideal S1x1 .f32) : View.ld x rOne = x := View.ld_unit_zero zero2 _ x

theorem chan_div (t : Fin 4) (l : Fin 128) (h) : (⟨(Cert.Spec.chan t l).val / 128, h⟩ : Fin 4) = t :=
  Fin.ext (by show (128 * t.val + l.val) / 128 = t.val; have := l.isLt; omega)
theorem chan_mod (t : Fin 4) (l : Fin 128) (h) : (⟨(Cert.Spec.chan t l).val % 128, h⟩ : Fin 128) = l :=
  Fin.ext (by show (128 * t.val + l.val) % 128 = l.val; have := l.isLt; omega)
theorem chan_onto (k : Fin 512) : ∃ (t : Fin 4) (l : Fin 128), k = Cert.Spec.chan t l :=
  ⟨⟨k.val / 128, by have := k.isLt; omega⟩, ⟨k.val % 128, Nat.mod_lt _ (by decide)⟩,
    Fin.ext (by show k.val = 128 * (k.val / 128) + k.val % 128; omega)⟩

section AtPoint

variable (p : Fin cfg0.N) (r : Fin 1000)

/-! ## The seven ingredients of the fused form, at row r of point p -/

/-- Residue 3's row of the node: stripe t's last-residue row at lane l is channel 128·t + l. -/
theorem last_pick (t : Fin 4) (l : Fin 128) :
    Cert.Spec.pick4 (View.ld (iblk (V1 m ρ) c 0 p) rLast) (View.ld (iblk (V1 m ρ) c 1 p) rLast) (View.ld (iblk (V1 m ρ) c 2 p) rLast) (View.ld (iblk (V1 m ρ) c 3 p) rLast)
        t (ValueIdx.ix4 r (0 : Fin 1) (0 : Fin 1) l)
      = aX m c (node p r) (Cert.Spec.chan t l) 3 :=
  match t with
  | ⟨0, _⟩ => by
    show View.ld (iblk (V1 m ρ) c 0 p) rLast _ = _
    rw [last_at, stripe0_at]
    exact Cert.HostValue.v2_at m c (node p r) 0 3 l
  | ⟨1, _⟩ => by
    show View.ld (iblk (V1 m ρ) c 1 p) rLast _ = _
    rw [last_at, stripe1_at]
    exact Cert.HostValue.v2_at m c (node p r) 1 3 l
  | ⟨2, _⟩ => by
    show View.ld (iblk (V1 m ρ) c 2 p) rLast _ = _
    rw [last_at, stripe2_at]
    exact Cert.HostValue.v2_at m c (node p r) 2 3 l
  | ⟨3, _⟩ => by
    show View.ld (iblk (V1 m ρ) c 3 p) rLast _ = _
    rw [last_at, stripe3_at]
    exact Cert.HostValue.v2_at m c (node p r) 3 3 l

theorem xl_at (k : Fin 512) :
    Cert.Spec.pick4 (View.ld (iblk (V1 m ρ) c 0 p) rLast) (View.ld (iblk (V1 m ρ) c 1 p) rLast) (View.ld (iblk (V1 m ρ) c 2 p) rLast) (View.ld (iblk (V1 m ρ) c 3 p) rLast)
        ⟨k.val / 128, by have := k.isLt; omega⟩ (ValueIdx.ix4 r (0 : Fin 1) (0 : Fin 1) ⟨k.val % 128, Nat.mod_lt _ (by decide)⟩)
      = aX m c (node p r) k 3 := by
  obtain ⟨t, l, rfl⟩ := chan_onto k
  rw [chan_div, chan_mod]
  exact last_pick m ρ c p r t l

/-- The node's four stripes. -/
theorem xs_at (t q : Fin 4) (l : Fin 128) :
    Cert.Spec.pick4 (View.ld (iblk (V1 m ρ) c 0 p) rStripe) (View.ld (iblk (V1 m ρ) c 1 p) rStripe) (View.ld (iblk (V1 m ρ) c 2 p) rStripe) (View.ld (iblk (V1 m ρ) c 3 p) rStripe)
        t (ValueIdx.ix4 r (0 : Fin 1) q l)
      = aX m c (node p r) (Cert.Spec.chan t l) q :=
  match t with
  | ⟨0, _⟩ => by
    show View.ld (iblk (V1 m ρ) c 0 p) rStripe _ = _
    rw [ld_stripe, stripe0_at]
    exact Cert.HostValue.v2_at m c (node p r) 0 q l
  | ⟨1, _⟩ => by
    show View.ld (iblk (V1 m ρ) c 1 p) rStripe _ = _
    rw [ld_stripe, stripe1_at]
    exact Cert.HostValue.v2_at m c (node p r) 1 q l
  | ⟨2, _⟩ => by
    show View.ld (iblk (V1 m ρ) c 2 p) rStripe _ = _
    rw [ld_stripe, stripe2_at]
    exact Cert.HostValue.v2_at m c (node p r) 2 q l
  | ⟨3, _⟩ => by
    show View.ld (iblk (V1 m ρ) c 3 p) rStripe _ = _
    rw [ld_stripe, stripe3_at]
    exact Cert.HostValue.v2_at m c (node p r) 3 q l

/-- The weight block's four cuts. -/
theorem wb_at (t q : Fin 4) (l : Fin 128) :
    Cert.Spec.pick4 (View.ld (iblk (V1 m ρ) c 4 p) rCut0) (View.ld (iblk (V1 m ρ) c 4 p) rCut1) (View.ld (iblk (V1 m ρ) c 4 p) rCut2) (View.ld (iblk (V1 m ρ) c 4 p) rCut3)
        t (ValueIdx.ix2 q l)
      = Cert.Spec.wl (aWlin m c) q (Cert.Spec.chan t l) :=
  match t with
  | ⟨0, _⟩ => by
    show View.ld (iblk (V1 m ρ) c 4 p) rCut0 _ = _
    rw [cut0_at, whole4_at]
    exact Cert.HostValue.v5_at m c q (Cert.Spec.chan 0 l)
  | ⟨1, _⟩ => by
    show View.ld (iblk (V1 m ρ) c 4 p) rCut1 _ = _
    rw [cut1_at, whole4_at]
    exact Cert.HostValue.v5_at m c q (Cert.Spec.chan 1 l)
  | ⟨2, _⟩ => by
    show View.ld (iblk (V1 m ρ) c 4 p) rCut2 _ = _
    rw [cut2_at, whole4_at]
    exact Cert.HostValue.v5_at m c q (Cert.Spec.chan 2 l)
  | ⟨3, _⟩ => by
    show View.ld (iblk (V1 m ρ) c 4 p) rCut3 _ = _
    rw [cut3_at, whole4_at]
    exact Cert.HostValue.v5_at m c q (Cert.Spec.chan 3 l)

theorem w1_at (k : Fin 512) (j : Fin 1024) : View.ld (iblk (V1 m ρ) c 5 p) rMat (ValueIdx.ix2 k j) = aW1 m c k j := by
  rw [ld_mat, whole5_at]
  exact Cert.HostValue.v10_at m c k j
theorem b1_at (j : Fin 1024) : View.ld (iblk (V1 m ρ) c 6 p) rRow (ValueIdx.ix2 (0 : Fin 1) j) = aB1 m c j := by
  rw [ld_row, whole6_at]
  exact Cert.HostValue.v11_at m c j
theorem w2_at (j : Fin 1024) : View.ld (iblk (V1 m ρ) c 7 p) rRow (ValueIdx.ix2 (0 : Fin 1) j) = aW2 m c j := by
  rw [ld_row, whole7_at]
  exact Cert.HostValue.v12_at m c j
theorem bias_cell : View.ld (iblk (V1 m ρ) c 8 p) rOne (ValueIdx.ix2 (0 : Fin 1) (0 : Fin 1)) = Cert.Spec.biasAll (aBlin m c) (aB2 m c) := by
  rw [ld_one, whole8_at]
  exact Cert.HostValue.v9_at m c

/-- Row r of what point p stores is the fused grouping at node 1000·p + r. -/
theorem colAt_eq :
    colAt (V1 m ρ) c p r = Cert.Spec.kout (aX m c) (aWlin m c) (aBlin m c) (aW1 m c) (aB1 m c) (aW2 m c) (aB2 m c) (node p r) := by
  unfold colAt payload
  refine (Cert.KernelValue.payload_at _ _ _ _ _ _ _ _ _ _ _ _ _ _ _ _ r).trans ?_
  unfold Cert.Spec.kout
  refine congr (congr (congr (congr (congr (congr (congrArg Cert.Spec.kform ?_) ?_) ?_) ?_) ?_) ?_) ?_
  · exact funext fun k => xl_at m ρ c p r k
  · exact funext fun t => funext fun q => funext fun l => xs_at m ρ c p r t q l
  · exact funext fun t => funext fun q => funext fun l => wb_at m ρ c p t q l
  · exact funext fun k => funext fun j => w1_at m ρ c p k j
  · exact funext fun j => b1_at m ρ c p j
  · exact funext fun j => w2_at m ρ c p j
  · exact bias_cell m ρ c p

end AtPoint

/-! ## The result array -/

/-- The program's result at node n: the head-by-head sum. -/
theorem result_at (n : Fin 10000) :
    (shapeCast S10000 (column m ρ c) shapeCasts_S10000x1_S10000 : S10000.Idx → EReal) (ValueIdx.ix1 n)
      = Cert.Spec.out (aX m c) (aWlin m c) (aBlin m c) (aW1 m c) (aB1 m c) (aW2 m c) (aB2 m c) n := by
  rw [shapeCast_apply (column m ρ c) shapeCasts_S10000x1_S10000 (ValueIdx.ix1 n) (ValueIdx.ix2 n (0 : Fin 1))
    (by (show (S10000x1.rowMajor (ValueIdx.ix2 n (0 : Fin 1))).val = (S10000.rowMajor (ValueIdx.ix1 n)).val); rw [Shape.rowMajor_val_two, Shape.rowMajor_val_one]; (show n.val * 1 + 0 = n.val); omega)]
  show (dat (V1 m ρ) c).arrAt 9 cfg0.N (ValueIdx.ix2 n (0 : Fin 1)) = _
  rw [column_eq]
  show colAt (V1 m ρ) c (pointOf n) (rowOf n) = _
  rw [colAt_eq, node_pointOf_rowOf]
  exact Cert.SpecLaw.kout_eq_out _ _ _ _ _ _ _ n

end Cert.KernelIdeal.Hand

end
-- ==== Proof.RefValue.lean ====
/-
  The reference's result at node n is the head-by-head sum of the specification.

  Each of the three linear heads reads one residue of the embedding through two reshapes and a slice, contracts it
  over the 512 channels against one weight column, and adds one bias; the last head contracts residue 3 against the
  512 × 1024 layer, adds its bias, applies h ↦ h · (1 / (1 + e^(−h))) entry by entry, contracts over the 1024 hidden
  units and adds the last bias. The four columns are stacked on a new leading axis and summed over it from 0.
  Every step below is an index equation (which entry of the operand a layout operation reads) or the definition of
  an arithmetic operation on the extended reals; no algebraic law beyond 0 + a = a is used.
-/
import proofs.«153232_g87316685128367_cont_sun_m_226_15_alg».proof.Proof.Spec
import proofs.«153232_g87316685128367_cont_sun_m_226_15_alg».proof.Proof.Gen.ReferenceIdeal.Read
import Idealize.ShloMosaic.Lib.ValueIdx

noncomputable section
open Idealize.ShloMosaic Idealize.ShloMosaic.TcCoe Idealize.SL.Sem

namespace Cert.RefValue
open Cert.ReferenceIdeal
open Cert.ReferenceIdeal.Read ValueIdx

/-! ## The float words 1.0 and the heads of the specification -/

/-- The word 0x3F800000 is the real number 1. -/
theorem ofBits_one_f32 : Ideal.ofBits .f32 0x3F800000#32 = 1 := by
  simp [Ideal.ofBits, Ideal.ieee, -EReal.coe_mul]; norm_num

section Heads
variable (x : Fin 10000 → Fin 512 → Fin 4 → EReal) (wlin : Fin 3 → Fin 512 → EReal) (blin : Fin 3 → EReal)
  (w1 : Fin 512 → Fin 1024 → EReal) (b1 : Fin 1024 → EReal) (w2 : Fin 1024 → EReal) (b2 : EReal) (n : Fin 10000)

theorem head_zero : Cert.Spec.head x wlin blin w1 b1 w2 b2 0 n = Cert.Spec.lin x wlin blin 0 n := by
  unfold Cert.Spec.head; rw [dif_pos (by decide)]; rfl
theorem head_one : Cert.Spec.head x wlin blin w1 b1 w2 b2 1 n = Cert.Spec.lin x wlin blin 1 n := by
  unfold Cert.Spec.head; rw [dif_pos (by decide)]; rfl
theorem head_two : Cert.Spec.head x wlin blin w1 b1 w2 b2 2 n = Cert.Spec.lin x wlin blin 2 n := by
  unfold Cert.Spec.head; rw [dif_pos (by decide)]; rfl
theorem head_three : Cert.Spec.head x wlin blin w1 b1 w2 b2 3 n = Cert.Spec.mlp x w1 b1 w2 b2 n := by
  unfold Cert.Spec.head; rw [dif_neg (by decide)]
end Heads

/-! ## Index equations: the reshapes and slices of the embedding -/

/-- Row-major position n·512 + k of a [10000, 512] array is (n, k, 0) of the [10000, 512, 1] one. -/
theorem e_v2 (n : Fin 10000) (k : Fin 512) : idx_main_v2 (ix2 n k) = ix3 n k (0 : Fin 1) :=
  funext fun a => Fin.ext (by
    have hn := n.isLt; have hk := k.isLt
    match a with
    | ⟨0, _⟩ => show (n.val * 512 + k.val) / 512 = n.val; omega
    | ⟨1, _⟩ => show (n.val * 512 + k.val) / 1 % 512 = k.val; omega
    | ⟨2, _⟩ => rfl)
theorem e_v12 (n : Fin 10000) (k : Fin 512) : idx_main_v12 (ix2 n k) = ix3 n k (0 : Fin 1) := e_v2 n k
theorem e_v22 (n : Fin 10000) (k : Fin 512) : idx_main_v22 (ix2 n k) = ix3 n k (0 : Fin 1) := e_v2 n k
theorem e_v32 (n : Fin 10000) (k : Fin 512) : idx_main_v32 (ix2 n k) = ix3 n k (0 : Fin 1) := e_v2 n k

/-- The slice at residue r reads residue r. -/
theorem e_v1 (n : Fin 10000) (k : Fin 512) : idx_main_v1 (ix3 n k (0 : Fin 1)) = ix3 n k (0 : Fin 4) :=
  funext fun a => Fin.ext (by match a with | ⟨0, _⟩ => rfl | ⟨1, _⟩ => rfl | ⟨2, _⟩ => rfl)
theorem e_v11 (n : Fin 10000) (k : Fin 512) : idx_main_v11 (ix3 n k (0 : Fin 1)) = ix3 n k (1 : Fin 4) :=
  funext fun a => Fin.ext (by match a with | ⟨0, _⟩ => rfl | ⟨1, _⟩ => rfl | ⟨2, _⟩ => rfl)
theorem e_v21 (n : Fin 10000) (k : Fin 512) : idx_main_v21 (ix3 n k (0 : Fin 1)) = ix3 n k (2 : Fin 4) :=
  funext fun a => Fin.ext (by match a with | ⟨0, _⟩ => rfl | ⟨1, _⟩ => rfl | ⟨2, _⟩ => rfl)
theorem e_v31 (n : Fin 10000) (k : Fin 512) : idx_main_v31 (ix3 n k (0 : Fin 1)) = ix3 n k (3 : Fin 4) :=
  funext fun a => Fin.ext (by match a with | ⟨0, _⟩ => rfl | ⟨1, _⟩ => rfl | ⟨2, _⟩ => rfl)

/-- Dropping the unit axis of the embedding: position (n·512 + k)·4 + r is (n, k, 0, r). -/
theorem e_v0 (n : Fin 10000) (k : Fin 512) (r : Fin 4) : idx_main_v0 (ix3 n k r) = ix4 n k (0 : Fin 1) r :=
  funext fun a => Fin.ext (by
    have hn := n.isLt; have hk := k.isLt; have hr := r.isLt
    match a with
    | ⟨0, _⟩ => show ((n.val * 512 + k.val) * 4 + r.val) / 2048 = n.val; omega
    | ⟨1, _⟩ => show ((n.val * 512 + k.val) * 4 + r.val) / 4 % 512 = k.val; omega
    | ⟨2, _⟩ => rfl
    | ⟨3, _⟩ => show ((n.val * 512 + k.val) * 4 + r.val) % 4 = r.val; omega)

section Slices
variable (a0 : (⟨S10000x512x1x4, .f32⟩ : BufTy).Contents (Elt Ideal)) (n : Fin 10000) (k : Fin 512)

/-- The four [10000, 512] slices of the embedding, at (n, k). -/
theorem x0_apply : val_main_v2 (F := Ideal) a0 (ix2 n k) = a0 (ix4 n k 0 0) := by
  rw [val_main_v2_apply, e_v2, val_main_v1_apply, e_v1, val_main_v0_apply, e_v0]
theorem x1_apply : val_main_v12 (F := Ideal) a0 (ix2 n k) = a0 (ix4 n k 0 1) := by
  rw [val_main_v12_apply, e_v12, val_main_v11_apply, e_v11, val_main_v0_apply, e_v0]
theorem x2_apply : val_main_v22 (F := Ideal) a0 (ix2 n k) = a0 (ix4 n k 0 2) := by
  rw [val_main_v22_apply, e_v22, val_main_v21_apply, e_v21, val_main_v0_apply, e_v0]
theorem x3_apply : val_main_v32 (F := Ideal) a0 (ix2 n k) = a0 (ix4 n k 0 3) := by
  rw [val_main_v32_apply, e_v32, val_main_v31_apply, e_v31, val_main_v0_apply, e_v0]
end Slices

/-! ## Index equations: the weight columns and the biases of the linear heads -/

theorem e_v4 (k : Fin 512) : idx_main_v4 (ix2 k (0 : Fin 1)) = ix3 (0 : Fin 1) k (0 : Fin 1) :=
  funext fun a => Fin.ext (by
    have hk := k.isLt
    match a with
    | ⟨0, _⟩ => rfl
    | ⟨1, _⟩ => show (k.val * 1 + 0) / 1 % 512 = k.val; omega
    | ⟨2, _⟩ => rfl)
theorem e_v14 (k : Fin 512) : idx_main_v14 (ix2 k (0 : Fin 1)) = ix3 (0 : Fin 1) k (0 : Fin 1) := e_v4 k
theorem e_v24 (k : Fin 512) : idx_main_v24 (ix2 k (0 : Fin 1)) = ix3 (0 : Fin 1) k (0 : Fin 1) := e_v4 k

theorem e_v3 (k : Fin 512) : idx_main_v3 (ix3 (0 : Fin 1) k (0 : Fin 1)) = ix3 (0 : Fin 3) k (0 : Fin 1) :=
  funext fun a => Fin.ext (by match a with | ⟨0, _⟩ => rfl | ⟨1, _⟩ => rfl | ⟨2, _⟩ => rfl)
theorem e_v13 (k : Fin 512) : idx_main_v13 (ix3 (0 : Fin 1) k (0 : Fin 1)) = ix3 (1 : Fin 3) k (0 : Fin 1) :=
  funext fun a => Fin.ext (by match a with | ⟨0, _⟩ => rfl | ⟨1, _⟩ => rfl | ⟨2, _⟩ => rfl)
theorem e_v23 (k : Fin 512) : idx_main_v23 (ix3 (0 : Fin 1) k (0 : Fin 1)) = ix3 (2 : Fin 3) k (0 : Fin 1) :=
  funext fun a => Fin.ext (by match a with | ⟨0, _⟩ => rfl | ⟨1, _⟩ => rfl | ⟨2, _⟩ => rfl)

section Columns
variable (a1 : (⟨S3x512x1, .f32⟩ : BufTy).Contents (Elt Ideal)) (k : Fin 512)

/-- The three [512, 1] weight columns, at (k, 0). -/
theorem w0_apply : val_main_v4 (F := Ideal) a1 (ix2 k 0) = a1 (ix3 0 k 0) := by
  rw [val_main_v4_apply, e_v4, val_main_v3_apply, e_v3]
theorem w1_apply : val_main_v14 (F := Ideal) a1 (ix2 k 0) = a1 (ix3 1 k 0) := by
  rw [val_main_v14_apply, e_v14, val_main_v13_apply, e_v13]
theorem w2_apply : val_main_v24 (F := Ideal) a1 (ix2 k 0) = a1 (ix3 2 k 0) := by
  rw [val_main_v24_apply, e_v24, val_main_v23_apply, e_v23]
end Columns

section Biases
variable (a2 : (⟨S3x1, .f32⟩ : BufTy).Contents (Elt Ideal)) (i : S10000x1.Idx)

/-- The three broadcast biases: every entry of the [10000, 1] array is the head's bias. -/
theorem b0_apply : val_main_v9 (F := Ideal) a2 i = a2 (ix2 0 0) := by
  rw [val_main_v9_apply, val_main_v8_apply, val_main_v7_apply, val_main_v6_apply]
  exact congrArg a2 (funext fun a => Fin.ext (by match a with | ⟨0, _⟩ => rfl | ⟨1, _⟩ => rfl))
theorem b1_apply : val_main_v19 (F := Ideal) a2 i = a2 (ix2 1 0) := by
  rw [val_main_v19_apply, val_main_v18_apply, val_main_v17_apply, val_main_v16_apply]
  exact congrArg a2 (funext fun a => Fin.ext (by match a with | ⟨0, _⟩ => rfl | ⟨1, _⟩ => rfl))
theorem b2_apply : val_main_v29 (F := Ideal) a2 i = a2 (ix2 2 0) := by
  rw [val_main_v29_apply, val_main_v28_apply, val_main_v27_apply, val_main_v26_apply]
  exact congrArg a2 (funext fun a => Fin.ext (by match a with | ⟨0, _⟩ => rfl | ⟨1, _⟩ => rfl))
end Biases

/-! ## The contraction indices -/

theorem l_v5 (n : Fin 10000) (k : Fin 512) : lidx_main_v5 (ix2 n (0 : Fin 1)) k = ix2 n k :=
  funext fun a => Fin.ext (by match a with | ⟨0, _⟩ => rfl | ⟨1, _⟩ => rfl)
theorem r_v5 (n : Fin 10000) (k : Fin 512) : ridx_main_v5 (ix2 n (0 : Fin 1)) k = ix2 k (0 : Fin 1) :=
  funext fun a => Fin.ext (by match a with | ⟨0, _⟩ => rfl | ⟨1, _⟩ => rfl)
theorem l_v15 (n : Fin 10000) (k : Fin 512) : lidx_main_v15 (ix2 n (0 : Fin 1)) k = ix2 n k := l_v5 n k
theorem r_v15 (n : Fin 10000) (k : Fin 512) : ridx_main_v15 (ix2 n (0 : Fin 1)) k = ix2 k (0 : Fin 1) := r_v5 n k
theorem l_v25 (n : Fin 10000) (k : Fin 512) : lidx_main_v25 (ix2 n (0 : Fin 1)) k = ix2 n k := l_v5 n k
theorem r_v25 (n : Fin 10000) (k : Fin 512) : ridx_main_v25 (ix2 n (0 : Fin 1)) k = ix2 k (0 : Fin 1) := r_v5 n k
theorem l_v33 (n : Fin 10000) (j : Fin 1024) (k : Fin 512) : lidx_main_v33 (ix2 n j) k = ix2 n k :=
  funext fun a => Fin.ext (by match a with | ⟨0, _⟩ => rfl | ⟨1, _⟩ => rfl)
theorem r_v33 (n : Fin 10000) (j : Fin 1024) (k : Fin 512) : ridx_main_v33 (ix2 n j) k = ix2 k j :=
  funext fun a => Fin.ext (by match a with | ⟨0, _⟩ => rfl | ⟨1, _⟩ => rfl)
theorem l_v38 (n : Fin 10000) (j : Fin 1024) : lidx_main_v38 (ix2 n (0 : Fin 1)) j = ix2 n j :=
  funext fun a => Fin.ext (by match a with | ⟨0, _⟩ => rfl | ⟨1, _⟩ => rfl)
theorem r_v38 (n : Fin 10000) (j : Fin 1024) : ridx_main_v38 (ix2 n (0 : Fin 1)) j = ix2 j (0 : Fin 1) :=
  funext fun a => Fin.ext (by match a with | ⟨0, _⟩ => rfl | ⟨1, _⟩ => rfl)

/-! ## The three linear heads -/

section Lin
variable (a0 : (⟨S10000x512x1x4, .f32⟩ : BufTy).Contents (Elt Ideal)) (a1 : (⟨S3x512x1, .f32⟩ : BufTy).Contents (Elt Ideal))
  (a2 : (⟨S3x1, .f32⟩ : BufTy).Contents (Elt Ideal)) (n : Fin 10000)

theorem lin0_apply : val_main_v10 (F := Ideal) a0 a1 a2 (ix2 n 0)
    = Cert.Spec.lin (fun n k r => a0 (ix4 n k 0 r)) (fun i k => a1 (ix3 i k 0)) (fun i => a2 (ix2 i 0)) 0 n := by
  rw [val_main_v10_apply, val_main_v5_apply, b0_apply]
  simp only [l_v5, r_v5, x0_apply, w0_apply, Ideal.addf_def]
  unfold Cert.Spec.lin; rw [zero_add]; rfl
theorem lin1_apply : val_main_v20 (F := Ideal) a0 a1 a2 (ix2 n 0)
    = Cert.Spec.lin (fun n k r => a0 (ix4 n k 0 r)) (fun i k => a1 (ix3 i k 0)) (fun i => a2 (ix2 i 0)) 1 n := by
  rw [val_main_v20_apply, val_main_v15_apply, b1_apply]
  simp only [l_v15, r_v15, x1_apply, w1_apply, Ideal.addf_def]
  unfold Cert.Spec.lin; rw [zero_add]; rfl
theorem lin2_apply : val_main_v30 (F := Ideal) a0 a1 a2 (ix2 n 0)
    = Cert.Spec.lin (fun n k r => a0 (ix4 n k 0 r)) (fun i k => a1 (ix3 i k 0)) (fun i => a2 (ix2 i 0)) 2 n := by
  rw [val_main_v30_apply, val_main_v25_apply, b2_apply]
  simp only [l_v25, r_v25, x2_apply, w2_apply, Ideal.addf_def]
  unfold Cert.Spec.lin; rw [zero_add]; rfl
end Lin

/-! ## The 1024-wide head -/

section Mlp
variable (a0 : (⟨S10000x512x1x4, .f32⟩ : BufTy).Contents (Elt Ideal)) (a3 : (⟨S512x1024, .f32⟩ : BufTy).Contents (Elt Ideal))
  (a4 : (⟨S1024, .f32⟩ : BufTy).Contents (Elt Ideal)) (a5 : (⟨S1024x1, .f32⟩ : BufTy).Contents (Elt Ideal))
  (a6 : (⟨S1, .f32⟩ : BufTy).Contents (Elt Ideal)) (n : Fin 10000)

/-- The first layer's bias, broadcast down the rows. -/
theorem b4_apply (j : Fin 1024) : val_main_v35 (F := Ideal) a4 (ix2 n j) = a4 (ix1 j) := by
  rw [val_main_v35_apply, val_main_v34_apply]
  exact congrArg a4 (funext fun a => Fin.ext (by match a with | ⟨0, _⟩ => rfl))

/-- The last bias, broadcast down the rows. -/
theorem b6_apply (i : S10000x1.Idx) : val_main_v40 (F := Ideal) a6 i = a6 (ix1 0) := by
  rw [val_main_v40_apply, val_main_v39_apply]
  exact congrArg a6 (funext fun a => Fin.ext (by match a with | ⟨0, _⟩ => rfl))

/-- The first layer at (n, j). -/
theorem hid_apply (j : Fin 1024) : val_main_v36 (F := Ideal) a0 a3 a4 (ix2 n j)
    = Cert.Spec.hid (fun n k r => a0 (ix4 n k 0 r)) (fun k j => a3 (ix2 k j)) (fun j => a4 (ix1 j)) n j := by
  rw [val_main_v36_apply, val_main_v33_apply, b4_apply]
  simp only [l_v33, r_v33, x3_apply, Ideal.addf_def]
  unfold Cert.Spec.hid; rw [zero_add]

/-- The outlined function: h ↦ h · (1 / (1 + e^(−h))), entry by entry. -/
theorem silu_apply (i : S10000x1024.Idx) : val_main_v37 (F := Ideal) a0 a3 a4 i
    = Cert.Spec.silu (val_main_v36 (F := Ideal) a0 a3 a4 i) := by
  rw [val_main_v37_apply, val_main_call0_v5_apply, val_main_call0_v4_apply, val_main_call0_cst_0_apply,
    val_main_call0_v3_apply, val_main_call0_v2_apply, val_main_call0_cst_apply, val_main_call0_v1_apply,
    val_main_call0_v0_apply]
  generalize val_main_v36 (F := Ideal) a0 a3 a4 i = h
  show h * Ideal.div (Ideal.ofBits .f32 0x3F800000#32) (Ideal.ofBits .f32 0x3F800000#32 + Ideal.exp (-h)) = h * Ideal.logistic h
  rw [ofBits_one_f32]; rfl

theorem mlp_apply : val_main_v41 (F := Ideal) a0 a3 a4 a5 a6 (ix2 n 0)
    = Cert.Spec.mlp (fun n k r => a0 (ix4 n k 0 r)) (fun k j => a3 (ix2 k j)) (fun j => a4 (ix1 j)) (fun j => a5 (ix2 j 0))
        (a6 (ix1 0)) n := by
  rw [val_main_v41_apply, val_main_v38_apply, b6_apply]
  simp only [l_v38, r_v38, silu_apply, hid_apply, Ideal.addf_def]
  unfold Cert.Spec.mlp; rw [zero_add]
end Mlp

/-! ## The stack of the four columns, and the sum over it -/

section Stack
variable (y0 y1 y2 y3 : (⟨S1x10000x1, .f32⟩ : BufTy).Contents (Elt Ideal))
  (h : Shape.Concatenates [S1x10000x1, S1x10000x1, S1x10000x1, S1x10000x1] S4x10000x1 0) (n : Fin 10000)

/-- Row s of the four stacked [1, 10000, 1] pieces is piece s. -/
theorem stack0 : concatenate S4x10000x1 0 [⟨S1x10000x1, y0⟩, ⟨S1x10000x1, y1⟩, ⟨S1x10000x1, y2⟩, ⟨S1x10000x1, y3⟩] h
    (ix3 (0 : Fin 4) n (0 : Fin 1)) = y0 (ix3 (0 : Fin 1) n (0 : Fin 1)) :=
  concatenate_apply_piece (t := S4x10000x1) (0 : Fin 3) [⟨S1x10000x1, y0⟩, ⟨S1x10000x1, y1⟩, ⟨S1x10000x1, y2⟩, ⟨S1x10000x1, y3⟩] h _ 0 (show 0 < 4 by decide)
    S1x10000x1 y0 rfl rfl 0 rfl (ix3 (0 : Fin 1) n (0 : Fin 1))
    (fun b hb => by match b with | ⟨0, _⟩ => exact absurd rfl hb | ⟨1, _⟩ => rfl | ⟨2, _⟩ => rfl) rfl
theorem stack1 : concatenate S4x10000x1 0 [⟨S1x10000x1, y0⟩, ⟨S1x10000x1, y1⟩, ⟨S1x10000x1, y2⟩, ⟨S1x10000x1, y3⟩] h
    (ix3 (1 : Fin 4) n (0 : Fin 1)) = y1 (ix3 (0 : Fin 1) n (0 : Fin 1)) :=
  concatenate_apply_piece (t := S4x10000x1) (0 : Fin 3) [⟨S1x10000x1, y0⟩, ⟨S1x10000x1, y1⟩, ⟨S1x10000x1, y2⟩, ⟨S1x10000x1, y3⟩] h _ 1 (show 1 < 4 by decide)
    S1x10000x1 y1 rfl rfl 1 rfl (ix3 (0 : Fin 1) n (0 : Fin 1))
    (fun b hb => by match b with | ⟨0, _⟩ => exact absurd rfl hb | ⟨1, _⟩ => rfl | ⟨2, _⟩ => rfl) rfl
theorem stack2 : concatenate S4x10000x1 0 [⟨S1x10000x1, y0⟩, ⟨S1x10000x1, y1⟩, ⟨S1x10000x1, y2⟩, ⟨S1x10000x1, y3⟩] h
    (ix3 (2 : Fin 4) n (0 : Fin 1)) = y2 (ix3 (0 : Fin 1) n (0 : Fin 1)) :=
  concatenate_apply_piece (t := S4x10000x1) (0 : Fin 3) [⟨S1x10000x1, y0⟩, ⟨S1x10000x1, y1⟩, ⟨S1x10000x1, y2⟩, ⟨S1x10000x1, y3⟩] h _ 2 (show 2 < 4 by decide)
    S1x10000x1 y2 rfl rfl 2 rfl (ix3 (0 : Fin 1) n (0 : Fin 1))
    (fun b hb => by match b with | ⟨0, _⟩ => exact absurd rfl hb | ⟨1, _⟩ => rfl | ⟨2, _⟩ => rfl) rfl
theorem stack3 : concatenate S4x10000x1 0 [⟨S1x10000x1, y0⟩, ⟨S1x10000x1, y1⟩, ⟨S1x10000x1, y2⟩, ⟨S1x10000x1, y3⟩] h
    (ix3 (3 : Fin 4) n (0 : Fin 1)) = y3 (ix3 (0 : Fin 1) n (0 : Fin 1)) :=
  concatenate_apply_piece (t := S4x10000x1) (0 : Fin 3) [⟨S1x10000x1, y0⟩, ⟨S1x10000x1, y1⟩, ⟨S1x10000x1, y2⟩, ⟨S1x10000x1, y3⟩] h _ 3 (show 3 < 4 by decide)
    S1x10000x1 y3 rfl rfl 3 rfl (ix3 (0 : Fin 1) n (0 : Fin 1))
    (fun b hb => by match b with | ⟨0, _⟩ => exact absurd rfl hb | ⟨1, _⟩ => rfl | ⟨2, _⟩ => rfl) rfl
end Stack

theorem e_v48 (n : Fin 10000) : idx_main_v48 (ix1 n) = ix2 n (0 : Fin 1) :=
  funext fun a => Fin.ext (by
    match a with
    | ⟨0, _⟩ => show n.val / 1 = n.val; omega
    | ⟨1, _⟩ => rfl)
theorem e_v47 (n : Fin 10000) (s : Fin 4) : idx_main_v47 (ix2 n (0 : Fin 1)) s = ix3 s n (0 : Fin 1) :=
  funext fun a => Fin.ext (by match a with | ⟨0, _⟩ => rfl | ⟨1, _⟩ => rfl | ⟨2, _⟩ => rfl)
theorem e_v42 (n : Fin 10000) : idx_main_v42 (ix3 (0 : Fin 1) n (0 : Fin 1)) = ix2 n (0 : Fin 1) :=
  funext fun a => Fin.ext (by match a with | ⟨0, _⟩ => rfl | ⟨1, _⟩ => rfl)
theorem e_v43 (n : Fin 10000) : idx_main_v43 (ix3 (0 : Fin 1) n (0 : Fin 1)) = ix2 n (0 : Fin 1) := e_v42 n
theorem e_v44 (n : Fin 10000) : idx_main_v44 (ix3 (0 : Fin 1) n (0 : Fin 1)) = ix2 n (0 : Fin 1) := e_v42 n
theorem e_v45 (n : Fin 10000) : idx_main_v45 (ix3 (0 : Fin 1) n (0 : Fin 1)) = ix2 n (0 : Fin 1) := e_v42 n

theorem ref_out (a0 : (⟨S10000x512x1x4, .f32⟩ : BufTy).Contents (Elt Ideal)) (a1 : (⟨S3x512x1, .f32⟩ : BufTy).Contents (Elt Ideal))
    (a2 : (⟨S3x1, .f32⟩ : BufTy).Contents (Elt Ideal)) (a3 : (⟨S512x1024, .f32⟩ : BufTy).Contents (Elt Ideal))
    (a4 : (⟨S1024, .f32⟩ : BufTy).Contents (Elt Ideal)) (a5 : (⟨S1024x1, .f32⟩ : BufTy).Contents (Elt Ideal))
    (a6 : (⟨S1, .f32⟩ : BufTy).Contents (Elt Ideal)) (n : Fin 10000) :
    Cert.ReferenceIdeal.Read.val_main_v48 (F := Ideal) a0 a1 a2 a3 a4 a5 a6 (ValueIdx.ix1 n)
      = Cert.Spec.out (fun n k r => a0 (ValueIdx.ix4 n k 0 r)) (fun i k => a1 (ValueIdx.ix3 i k 0)) (fun i => a2 (ValueIdx.ix2 i 0))
          (fun k j => a3 (ValueIdx.ix2 k j)) (fun j => a4 (ValueIdx.ix1 j)) (fun j => a5 (ValueIdx.ix2 j 0)) (a6 (ValueIdx.ix1 0)) n := by
  rw [val_main_v48_apply, e_v48, val_main_v47_apply, val_main_cst_apply, Fin.sum_univ_four,
    e_v47, e_v47, e_v47, e_v47]
  unfold val_main_v46
  rw [stack0, stack1, stack2, stack3,
    val_main_v42_apply, e_v42, lin0_apply, val_main_v43_apply, e_v43, lin1_apply,
    val_main_v44_apply, e_v44, lin2_apply, val_main_v45_apply, e_v45, mlp_apply,
    Ideal.ofBits_def, Ideal.ofBits_zero_f32]
  unfold Cert.Spec.out
  rw [Fin.sum_univ_four, head_zero, head_one, head_two, head_three]

end Cert.RefValue

end
-- ==== Proof.lean ====
/-
  Equivalence of a fused readout kernel and its head-by-head reference over the extended reals.

  Per node n of 10000, with x n k r the embedding at channel k < 512 and residue r < 4: residues 0, 1, 2 each pass through
  a 512 → 1 linear head, residue 3 through a 512 → 1024 layer, h ↦ h · σ(h), and a 1024 → 1 head; the result is the sum of
  the four heads with their biases (Spec.lean, `out`).

  The reference computes exactly that, one head at a time (RefValue.lean, over the generated read-at-an-index lemmas of
  its run). The kernel streams the embedding as four 128-lane stripes of one array, does the 1024-wide head on the matrix
  unit, folds the three linear heads into one elementwise product against a 4 × 512 weight block whose last row is zero,
  sums lanes, then residues, and adds all biases at once (Spec.lean, `kout`; KernelValue.lean reads the body's stored value
  in that form; HostValue.lean reads the host reshapings that build the stripes, the weight block and the bias cell;
  BlocksI.lean and ColumnI.lean carry the value from staging buffers to the whole output column). The two groupings agree
  by commutativity and associativity of + and x · 0 = 0 on the extended reals (SpecLaw.lean): no finiteness is used, so the
  precondition is never opened. A change of float format is the identity at this instance, so the kernel's bf16 matrix
  product is the reference's f32 one, and the kernel's logistic is the reference's 1 / (1 + e^(-h)) by definition.

  The three frames: the reference's is its generated run with the result dropped; each kernel program's is its run
  (RunK.lean at the word level, RunI.lean at the extended reals) with the result dropped. In that run the four stripe
  windows share one buffer, which is held a quarter each while the call lasts. The idealization rewrote nothing, so
  `preserves` is trivial.
-/
import proofs.«153232_g87316685128367_cont_sun_m_226_15_alg».proof.Defs
import proofs.«153232_g87316685128367_cont_sun_m_226_15_alg».proof.Proof.Gen.Kernel
import proofs.«153232_g87316685128367_cont_sun_m_226_15_alg».proof.Proof.Gen.KernelIdeal
import proofs.«153232_g87316685128367_cont_sun_m_226_15_alg».proof.Proof.Gen.ReferenceIdeal
import proofs.«153232_g87316685128367_cont_sun_m_226_15_alg».proof.Proof.Gen.ReferenceIdeal.Run
import proofs.«153232_g87316685128367_cont_sun_m_226_15_alg».proof.Proof.Gen.ReferenceIdeal.Read
import proofs.«153232_g87316685128367_cont_sun_m_226_15_alg».proof.Proof.Gen.Pre_finite_inputs
import proofs.«153232_g87316685128367_cont_sun_m_226_15_alg».proof.Proof.RunK
import proofs.«153232_g87316685128367_cont_sun_m_226_15_alg».proof.Proof.ResultI
import proofs.«153232_g87316685128367_cont_sun_m_226_15_alg».proof.Proof.RefValue
import Idealize.ShloMosaic.Adequacy
import Idealize.ShloMosaic.Init

noncomputable section

namespace Cert.Proof

open Idealize.ShloMosaic Idealize.SL.Sem

/-- The word-level kernel program runs and leaves its arguments: its run, the result forgotten. -/
theorem frame_k : Cert.frame_Kernel := fun m ρ _ =>
  (θ_run (Cert.Kernel.defs (F := Bits)) _ _).mono (fun _ h c => (h c).2) (Cert.Kernel.Hand.run (F := Bits) m ρ)

/-- The same program read at the extended reals. -/
theorem frame_ki : Cert.frame_KernelIdeal := fun m ρ _ =>
  (θ_run (Cert.KernelIdeal.defs (F := Ideal)) _ _).mono (fun _ h c => (h c).2) (Cert.KernelIdeal.Hand.run (F := Ideal) m ρ)

/-- The reference: its run, the result forgotten. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- Both programs end with the head-by-head sum of the argument arrays at every node. -/
theorem algebraic : Cert.algebraic_KernelIdeal_ReferenceIdeal := by
  intro m ρ m' ρ' _ hagree
  refine ⟨fun c i => Cert.Spec.out (Cert.KernelIdeal.Hand.aX m c) (Cert.KernelIdeal.Hand.aWlin m c) (Cert.KernelIdeal.Hand.aBlin m c)
      (Cert.KernelIdeal.Hand.aW1 m c) (Cert.KernelIdeal.Hand.aB1 m c) (Cert.KernelIdeal.Hand.aW2 m c) (Cert.KernelIdeal.Hand.aB2 m c) (i 0), ?_, ?_⟩
  · refine (θ_run (Cert.KernelIdeal.defs (F := Ideal)) _ _).mono (fun _ h c => ⟨(h c).1.trans ?_, (h c).2⟩)
      (Cert.KernelIdeal.Hand.run (F := Ideal) m ρ)
    funext i
    obtain ⟨n, rfl⟩ : ∃ n : Fin 10000, i = ValueIdx.ix1 n := ⟨i 0, ValueIdx.eq_ix1 i⟩
    exact Cert.KernelIdeal.Hand.result_at m ρ c n
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v48_eq]
    obtain ⟨h0, h1, h2, h3, h4, h5, h6⟩ := hagree c
    rw [h0, h1, h2, h3, h4, h5, h6]
    funext i
    obtain ⟨n, rfl⟩ : ∃ n : Fin 10000, i = ValueIdx.ix1 n := ⟨i 0, ValueIdx.eq_ix1 i⟩
    exact Cert.RefValue.ref_out _ _ _ _ _ _ _ n

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
